-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part5 {F : FTy → Type} [FloatOps F] (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  main_v88

def fn_part4 {F : FTy → Type} [FloatOps F] (main_arg15 : FVec F S256 .f32) (main_arg16 : FVec F S256 .f32) (main_arg17 : FVec F S256 .f32) (main_arg18 : FVec F S256 .f32) (main_v63 : IVec S_ 1) (main_v67 : IVec S_ 1) : IVec S_ 1 :=
  let main_v68 : IVec S_ 1 := andi main_v63 main_v67
  let main_v69 : FVec F S256 .f32 := Host.absf main_arg15
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg17
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_v83 main_v84 main_cst_32

def fn_part3 {F : FTy → Type} [FloatOps F] (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg12
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256 .f32 := Host.absf main_arg14
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg15 main_arg16 main_arg17 main_arg18 main_v63 main_v67

def fn_part2 {F : FTy → Type} [FloatOps F] (main_arg8 : FVec F S256x256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg9
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_v48 main_v49 main_v50

def fn_part1 {F : FTy → Type} [FloatOps F] (main_arg5 : FVec F S256x256 .f32) (main_arg6 : FVec F S256x256 .f32) (main_arg7 : FVec F S256 .f32) (main_arg8 : FVec F S256x256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg5
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x256 .f32) (main_arg1 : IVec S2x800000 32) (main_arg2 : FVec F S256x256 .f32) (main_arg3 : FVec F S256x256 .f32) (main_arg4 : FVec F S256 .f32) (main_arg5 : FVec F S256x256 .f32) (main_arg6 : FVec F S256x256 .f32) (main_arg7 : FVec F S256 .f32) (main_arg8 : FVec F S256x256 .f32) (main_arg9 : FVec F S256x256 .f32) (main_arg10 : FVec F S256 .f32) (main_arg11 : FVec F S256 .f32) (main_arg12 : FVec F S256 .f32) (main_arg13 : FVec F S256 .f32) (main_arg14 : FVec F S256 .f32) (main_arg15 : FVec F S256 .f32) (main_arg16 : FVec F S256 .f32) (main_arg17 : FVec F S256 .f32) (main_arg18 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S1x256 : Shape := ⟨2, ![1, 256]⟩
abbrev S2000x256 : Shape := ⟨2, ![2000, 256]⟩

abbrev nBuf : Space → Nat
  | .hbm => 95
  | .vmem => 35
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256x256, .f32⟩
  | .hbm, ⟨10, _⟩ => ⟨S256, .f32⟩
  | .hbm, ⟨11, _⟩ => ⟨S256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S1x800000, .i32⟩
  | .hbm, ⟨20, _⟩ => ⟨S800000, .i32⟩
  | .hbm, ⟨21, _⟩ => ⟨S1x800000, .i32⟩
  | .hbm, ⟨22, _⟩ => ⟨S800000, .i32⟩
  | .hbm, ⟨23, _⟩ => ⟨S_, .f32⟩
  | .hbm, ⟨24, _⟩ => ⟨S800000, .f32⟩
  | .hbm, ⟨25, _⟩ => ⟨S_, .f32⟩
  | .hbm, ⟨26, _⟩ => ⟨S50000, .f32⟩
  | .hbm, ⟨27, _⟩ => ⟨S800000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S_, .f32⟩
  | .hbm, ⟨33, _⟩ => ⟨S50000, .f32⟩
  | .hbm, ⟨34, _⟩ => ⟨S50000, .f32⟩
  | .hbm, ⟨35, _⟩ => ⟨S50000x1, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x256, .f32⟩
  | .hbm, ⟨45, _⟩ => ⟨S_, .f32⟩
  | .hbm, ⟨46, _⟩ => ⟨S50000x256, .f32⟩
  | .hbm, ⟨47, _⟩ => ⟨S800000x1, .i32⟩
  | .hbm, ⟨48, _⟩ => ⟨S50000x256, .f32⟩
  | .hbm, ⟨49, _⟩ => ⟨S50000x256, .f32⟩
  | .hbm, ⟨50, _⟩ => ⟨S50000x256, .f32⟩
  | .hbm, ⟨51, _⟩ => ⟨S1x256, .f32⟩
  | .hbm, ⟨52, _⟩ => ⟨S1x256, .f32⟩
  | .hbm, ⟨53, _⟩ => ⟨S1x256, .f32⟩
  | .hbm, ⟨54, _⟩ => ⟨S1x256, .f32⟩
  | .hbm, ⟨55, _⟩ => ⟨S1x256, .f32⟩
  | .hbm, ⟨56, _⟩ => ⟨S50000x256, .f32⟩
  | .hbm, ⟨57, _⟩ => ⟨S_, .i32⟩
  | .hbm, ⟨58, _⟩ => ⟨S800000, .i32⟩
  | .hbm, ⟨59, _⟩ => ⟨S800000, .i1⟩
  | .hbm, ⟨60, _⟩ => ⟨S_, .i32⟩
  | .hbm, ⟨61, _⟩ => ⟨S800000, .i32⟩
  | .hbm, ⟨62, _⟩ => ⟨S800000, .i32⟩
  | .hbm, ⟨63, _⟩ => ⟨S800000, .i32⟩
  | .hbm, ⟨64, _⟩ => ⟨S800000x1, .i32⟩
  | .hbm, ⟨65, _⟩ => ⟨S800000x256, .f32⟩
  | .hbm, ⟨66, _⟩ => ⟨S_, .f32⟩
  | .hbm, ⟨67, _⟩ => ⟨S50000x256, .f32⟩
  | .hbm, ⟨68, _⟩ => ⟨S800000x1, .i32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S1x256, .f32⟩
  | .hbm, ⟨73, _⟩ => ⟨S1x256, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S50000x256, .f32⟩
  | .hbm, ⟨78, _⟩ => ⟨S_, .i32⟩
  | .hbm, ⟨79, _⟩ => ⟨S800000, .i32⟩
  | .hbm, ⟨80, _⟩ => ⟨S800000, .i1⟩
  | .hbm, ⟨81, _⟩ => ⟨S_, .i32⟩
  | .hbm, ⟨82, _⟩ => ⟨S800000, .i32⟩
  | .hbm, ⟨83, _⟩ => ⟨S800000, .i32⟩
  | .hbm, ⟨84, _⟩ => ⟨S800000, .i32⟩
  | .hbm, ⟨85, _⟩ => ⟨S800000x1, .i32⟩
  | .hbm, ⟨86, _⟩ => ⟨S800000x256, .f32⟩
  | .hbm, ⟨87, _⟩ => ⟨S_, .f32⟩
  | .hbm, ⟨88, _⟩ => ⟨S50000x256, .f32⟩
  | .hbm, ⟨89, _⟩ => ⟨S800000x1, .i32⟩
  | .hbm, ⟨90, _⟩ => ⟨S50000x256, .f32⟩
  | .hbm, ⟨91, _⟩ => ⟨S50000x256, .f32⟩
  | .hbm, ⟨92, _⟩ => ⟨S50000x256, .f32⟩
  | .hbm, ⟨93, _⟩ => ⟨S1x256, .f32⟩
  | .hbm, ⟨94, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S2000x256, .f32⟩
  | .local _ .vmem, ⟨17, _⟩ => ⟨S256x256, .f32⟩
  | .local _ .vmem, ⟨18, _⟩ => ⟨S256x256, .f32⟩
  | .local _ .vmem, ⟨19, _⟩ => ⟨S1x256, .f32⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S2000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S2000x256, .f32⟩
  | .local _ .vmem, ⟨30, _⟩ => ⟨S256x256, .f32⟩
  | .local _ .vmem, ⟨31, _⟩ => ⟨S256x256, .f32⟩
  | .local _ .vmem, ⟨32, _⟩ => ⟨S1x256, .f32⟩
  | .local _ .vmem, ⟨33, _⟩ => ⟨S2000x256, .f32⟩
  | .local _ .vmem, ⟨34, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_cst_1 : Ref sig .tc := ⟨.hbm, 29, rfl⟩
abbrev main_v8 : Ref sig .tc := ⟨.hbm, 30, rfl⟩
abbrev main_v9 : Ref sig .tc := ⟨.hbm, 31, rfl⟩
abbrev main_cst_2 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_c : Ref sig .tc := ⟨.hbm, 36, rfl⟩
abbrev main_v13 : Ref sig .tc := ⟨.hbm, 37, rfl⟩
abbrev main_v14 : Ref sig .tc := ⟨.hbm, 38, rfl⟩
abbrev main_c_3 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_5 : Ref sig .tc := ⟨.hbm, 57, rfl⟩
abbrev main_v31 : Ref sig .tc := ⟨.hbm, 58, rfl⟩
abbrev main_v32 : Ref sig .tc := ⟨.hbm, 59, rfl⟩
abbrev main_c_6 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_7 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_8 : Ref sig .tc := ⟨.hbm, 78, rfl⟩
abbrev main_v49 : Ref sig .tc := ⟨.hbm, 79, rfl⟩
abbrev main_v50 : Ref sig .tc := ⟨.hbm, 80, rfl⟩
abbrev main_c_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_10 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg5_1 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem5_0 : DmaSem sig := 33
abbrev cc2_sem5_1 : DmaSem sig := 34

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x256 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x256.size a ≤ S50000x256.size a
  hwx0_9 : ∀ i : grid0.Coords, EltTy.bits .f32 = 32 ∨ (Rect.block (s := S50000x256) S2000x256.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x256.size a ≤ S1x256.size a
  hwx1_7 : ∀ i : grid1.Coords, EltTy.bits .f32 = 32 ∨ (Rect.block (s := S1x256) S1x256.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x256.size a ≤ S1x256.size a
  hwx1_8 : ∀ i : grid1.Coords, EltTy.bits .f32 = 32 ∨ (Rect.block (s := S1x256) S1x256.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x256.size a ≤ S50000x256.size a
  hwx1_9 : ∀ i : grid1.Coords, EltTy.bits .f32 = 32 ∨ (Rect.block (s := S50000x256) S2000x256.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256x256.size a ≤ S256x256.size a
  hwx2_3 : ∀ i : grid2.Coords, EltTy.bits .f32 = 32 ∨ (Rect.block (s := S256x256) S256x256.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x256.size a ≤ S1x256.size a
  hwx2_4 : ∀ i : grid2.Coords, EltTy.bits .f32 = 32 ∨ (Rect.block (s := S1x256) S1x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S50000x256.size a
  hwx2_5 : ∀ i : grid2.Coords, EltTy.bits .f32 = 32 ∨ (Rect.block (s := S50000x256) S2000x256.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v24) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S2000x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v42) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S1x256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v48) S2000x256.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v60) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v48) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg9) S256x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S1x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩

abbrev nBuf : Space → Nat
  | .hbm => 156
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256x256, .f32⟩
  | 4 => ⟨S256, .f32⟩
  | 5 => ⟨S256x256, .f32⟩
  | 6 => ⟨S256x256, .f32⟩
  | 7 => ⟨S256, .f32⟩
  | 8 => ⟨S256x256, .f32⟩
  | 9 => ⟨S256x256, .f32⟩
  | 10 => ⟨S256, .f32⟩
  | 11 => ⟨S256, .f32⟩
  | 12 => ⟨S256, .f32⟩
  | 13 => ⟨S256, .f32⟩
  | 14 => ⟨S256, .f32⟩
  | 15 => ⟨S256, .f32⟩
  | 16 => ⟨S256, .f32⟩
  | 17 => ⟨S256, .f32⟩
  | 18 => ⟨S256, .f32⟩
  | 19 => ⟨S1x800000, .i32⟩
  | 20 => ⟨S800000, .i32⟩
  | 21 => ⟨S1x800000, .i32⟩
  | 22 => ⟨S800000, .i32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x256, .f32⟩
  | 32 => ⟨S_, .f32⟩
  | 33 => ⟨S50000x256, .f32⟩
  | 34 => ⟨S800000x1, .i32⟩
  | 35 => ⟨S50000x256, .f32⟩
  | 36 => ⟨S_, .f32⟩
  | 37 => ⟨S800000, .f32⟩
  | 38 => ⟨S_, .f32⟩
  | 39 => ⟨S50000, .f32⟩
  | 40 => ⟨S800000x1, .i32⟩
  | 41 => ⟨S50000, .f32⟩
  | 42 => ⟨S_, .f32⟩
  | 43 => ⟨S50000, .f32⟩
  | 44 => ⟨S50000, .f32⟩
  | 45 => ⟨S50000x1, .f32⟩
  | 46 => ⟨S50000x256, .f32⟩
  | 47 => ⟨S50000x256, .f32⟩
  | 48 => ⟨S50000x256, .f32⟩
  | 49 => ⟨S50000x256, .f32⟩
  | 50 => ⟨S50000x256, .f32⟩
  | 51 => ⟨S1x256, .f32⟩
  | 52 => ⟨S50000x256, .f32⟩
  | 53 => ⟨S50000x256, .f32⟩
  | 54 => ⟨S1x256, .f32⟩
  | 55 => ⟨S50000x256, .f32⟩
  | 56 => ⟨S50000x256, .f32⟩
  | 57 => ⟨S_, .f32⟩
  | 58 => ⟨S256, .f32⟩
  | 59 => ⟨S256, .f32⟩
  | 60 => ⟨S256, .f32⟩
  | 61 => ⟨S1x256, .f32⟩
  | 62 => ⟨S50000x256, .f32⟩
  | 63 => ⟨S50000x256, .f32⟩
  | 64 => ⟨S1x256, .f32⟩
  | 65 => ⟨S50000x256, .f32⟩
  | 66 => ⟨S50000x256, .f32⟩
  | 67 => ⟨S1x256, .f32⟩
  | 68 => ⟨S50000x256, .f32⟩
  | 69 => ⟨S50000x256, .f32⟩
  | 70 => ⟨S_, .f32⟩
  | 71 => ⟨S50000x256, .f32⟩
  | 72 => ⟨S50000x256, .f32⟩
  | 73 => ⟨S50000x256, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x256, .f32⟩
  | 83 => ⟨S_, .f32⟩
  | 84 => ⟨S50000x256, .f32⟩
  | 85 => ⟨S800000x1, .i32⟩
  | 86 => ⟨S50000x256, .f32⟩
  | 87 => ⟨S_, .f32⟩
  | 88 => ⟨S800000, .f32⟩
  | 89 => ⟨S_, .f32⟩
  | 90 => ⟨S50000, .f32⟩
  | 91 => ⟨S800000x1, .i32⟩
  | 92 => ⟨S50000, .f32⟩
  | 93 => ⟨S_, .f32⟩
  | 94 => ⟨S50000, .f32⟩
  | 95 => ⟨S50000, .f32⟩
  | 96 => ⟨S50000x1, .f32⟩
  | 97 => ⟨S50000x256, .f32⟩
  | 98 => ⟨S50000x256, .f32⟩
  | 99 => ⟨S50000x256, .f32⟩
  | 100 => ⟨S50000x256, .f32⟩
  | 101 => ⟨S50000x256, .f32⟩
  | 102 => ⟨S1x256, .f32⟩
  | 103 => ⟨S50000x256, .f32⟩
  | 104 => ⟨S50000x256, .f32⟩
  | 105 => ⟨S1x256, .f32⟩
  | 106 => ⟨S50000x256, .f32⟩
  | 107 => ⟨S50000x256, .f32⟩
  | 108 => ⟨S_, .f32⟩
  | 109 => ⟨S256, .f32⟩
  | 110 => ⟨S256, .f32⟩
  | 111 => ⟨S256, .f32⟩
  | 112 => ⟨S1x256, .f32⟩
  | 113 => ⟨S50000x256, .f32⟩
  | 114 => ⟨S50000x256, .f32⟩
  | 115 => ⟨S1x256, .f32⟩
  | 116 => ⟨S50000x256, .f32⟩
  | 117 => ⟨S50000x256, .f32⟩
  | 118 => ⟨S1x256, .f32⟩
  | 119 => ⟨S50000x256, .f32⟩
  | 120 => ⟨S50000x256, .f32⟩
  | 121 => ⟨S_, .f32⟩
  | 122 => ⟨S50000x256, .f32⟩
  | 123 => ⟨S50000x256, .f32⟩
  | 124 => ⟨S50000x256, .f32⟩
  | 125 => ⟨S_, .i32⟩
  | 126 => ⟨S800000, .i32⟩
  | 127 => ⟨S800000, .i1⟩
  | _ => ⟨S50000x256, .f32⟩

abbrev hbmTy0_1 (i : Nat) : BufTy := match i % 128 with
  | 0 => ⟨S_, .i32⟩
  | 1 => ⟨S800000, .i32⟩
  | 2 => ⟨S800000, .i32⟩
  | 3 => ⟨S800000, .i32⟩
  | 4 => ⟨S800000x1, .i32⟩
  | 5 => ⟨S800000x256, .f32⟩
  | 6 => ⟨S_, .f32⟩
  | 7 => ⟨S50000x256, .f32⟩
  | 8 => ⟨S800000x1, .i32⟩
  | 9 => ⟨S50000x256, .f32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S50000x1, .f32⟩
  | 20 => ⟨S50000x256, .f32⟩
  | 21 => ⟨S50000x256, .f32⟩
  | 22 => ⟨S50000x256, .f32⟩
  | 23 => ⟨S50000x256, .f32⟩
  | 24 => ⟨S50000x256, .f32⟩
  | 25 => ⟨S1x256, .f32⟩
  | 26 => ⟨S50000x256, .f32⟩
  | 27 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_c : Ref sig .tc := ⟨.hbm, 23, rfl⟩
abbrev main_v4 : Ref sig .tc := ⟨.hbm, 24, rfl⟩
abbrev main_v5 : Ref sig .tc := ⟨.hbm, 25, rfl⟩
abbrev main_c_0 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_cst_2 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_4 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_call0_cst : Ref sig .tc := ⟨.hbm, 70, rfl⟩
abbrev main_call0_v0 : Ref sig .tc := ⟨.hbm, 71, rfl⟩
abbrev main_v44 : Ref sig .tc := ⟨.hbm, 72, rfl⟩
abbrev main_v45 : Ref sig .tc := ⟨.hbm, 73, rfl⟩
abbrev main_c_5 : Ref sig .tc := ⟨.hbm, 74, rfl⟩
abbrev main_v46 : Ref sig .tc := ⟨.hbm, 75, rfl⟩
abbrev main_v47 : Ref sig .tc := ⟨.hbm, 76, rfl⟩
abbrev main_c_6 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_7 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_8 : Ref sig .tc := ⟨.hbm, 87, rfl⟩
abbrev main_v56 : Ref sig .tc := ⟨.hbm, 88, rfl⟩
abbrev main_cst_9 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_10 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_11 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_call1_cst : Ref sig .tc := ⟨.hbm, 121, rfl⟩
abbrev main_call1_v0 : Ref sig .tc := ⟨.hbm, 122, rfl⟩
abbrev main_v86 : Ref sig .tc := ⟨.hbm, 123, rfl⟩
abbrev main_v87 : Ref sig .tc := ⟨.hbm, 124, rfl⟩
abbrev main_c_12 : Ref sig .tc := ⟨.hbm, 125, rfl⟩
abbrev main_v88 : Ref sig .tc := ⟨.hbm, 126, rfl⟩
abbrev main_v89 : Ref sig .tc := ⟨.hbm, 127, rfl⟩
abbrev main_c_13 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_14 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_15 : Ref sig .tc := ⟨.hbm, 138, rfl⟩
abbrev main_v98 : Ref sig .tc := ⟨.hbm, 139, rfl⟩
abbrev main_cst_16 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_cst_17 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256 : S_.BroadcastsInDim S256 (![] : Fin 0 → Fin S256.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The idealized kernel's run with its final memory NAMED.

  @main is six segments: a stretch of host operations, a tiled region, and so on three times.  Each segment is run
  from the buffer contents the previous one leaves, so the contents after the last segment are a fold from the launch
  memory: a host stretch applies its operations' functions, a region leaves each of its arrays at what its write-backs
  produce and every other buffer as it found it.  Every weakly fair execution terminates, nothing faults, and every
  buffer that is not scoped to a region ends at that fold's last stage (`run_all`); in particular the result array
  and the nineteen argument arrays (`run`), the arguments being never written.
-/
import proofs.«161210_j10050223473232_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every weakly fair execution of @main terminates without a fault, and every unscoped buffer of every core ends at
    the last stage of the fold through the six segments. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run with the result array and the arguments picked out: the result array ends at the last stage of the fold,
    each argument as launched. -/
theorem run : θ_run defs (onTc (τ := τ) (main (F := F))) ⟨m, fun _ => 0, ρ⟩ (fun r => ∀ c : Dev nD,
      r.2.mem ((c.tc : Thread nD τ).loc main_v62) = W6 m ρ c (Proc.devRef .tc main_v62)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c =>
      ⟨h c _ (mem_uc main_v62 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c)⟩)
    (run_all m ρ)

end Cert.KernelIdeal.RunValue

end
-- ==== Proof.SageSpec.lean ====
/-
  The mathematics of the three graph-convolution layers, on the extended reals, one entry at a time.

  A node matrix has 50000 rows (nodes) and 256 columns (features).  One layer takes the aggregated neighbour
  matrix `A` and the node matrix `h` and returns, at row `r` and column `c`,
      lin  =  (Σ_k A r k · Wl k c)  +  (Σ_k h r k · Wr k c)  +  b c,
  and, for the two normalised layers, `max (((lin − μ c) · rsqrt (var c + ε)) · γ c + β c) 0 + h r c`: an
  inference-mode batch normalisation, a rectifier, and the residual.  Every entry of the result depends on ONE row
  of `A` and of `h`, which is why computing the rows in tiles of 2000 and computing them all at once agree.

  The aggregated matrix is the neighbour SUM `S` divided, row by row, by `max (deg r) 1`.  One program divides; the
  other multiplies by the reciprocal `1 / max (deg r) 1`.  On the extended reals `x / y` is `x · y⁻¹` as soon as
  `y ≠ 0`, and `max d 1 ≥ 1 > 0` whatever `d` is, so the two agree for every `S` and every `deg`, infinite
  entries included: no finiteness of the inputs is used anywhere (`meanMul_eq_meanDiv`).
-/
import Idealize.ShloMosaic.PureOps.Ideal
import Idealize.ShloMosaic.Lib.ValueIdx

noncomputable section

open scoped BigOperators

namespace Cert.Sage

open Idealize.ShloMosaic

/-- A matrix of extended reals by its two coordinates. -/
abbrev Mat (a b : Nat) := Fin a → Fin b → EReal

/-- The batch normalisation's ε, the single-precision word both programs spell (never evaluated: it is the same
    word on both sides). -/
abbrev eps : EReal := Ideal.ofBits .f32 0x3727C5AC#32
/-- The word of `+0.0`: the rectifier's floor. -/
abbrev zeroW : EReal := Ideal.ofBits .f32 0x00000000#32
/-- The word of `1.0`: the degree's floor and the reciprocal's numerator. -/
abbrev oneW : EReal := Ideal.ofBits .f32 0x3F800000#32

/-- The word of `1.0` denotes the extended real `1`. -/
theorem oneW_eq : oneW = 1 := by
  simp [oneW, Ideal.ofBits, Ideal.ieee, -EReal.coe_mul]; norm_num

/-- The linear part of a layer at row `r`, column `c`: two matrix products and the bias, added in this order. -/
def lin {n : Nat} (A h : Mat n 256) (Wl Wr : Mat 256 256) (b : Fin 256 → EReal) (r : Fin n) (c : Fin 256) : EReal :=
  ((∑ k : Fin 256, A r k * Wl k c) + ∑ k : Fin 256, h r k * Wr k c) + b c

/-- A normalised layer at row `r`, column `c`: the linear part, normalised by the running statistics, rectified,
    plus the residual `h r c`. -/
def bn {n : Nat} (A h : Mat n 256) (Wl Wr : Mat 256 256) (b g bt mu var : Fin 256 → EReal) (r : Fin n) (c : Fin 256) : EReal :=
  max (((lin A h Wl Wr b r c - mu c) * Ideal.rsqrt (var c + eps)) * g c + bt c) zeroW + h r c

/-- An entry of the linear part depends on ONE row of `A` and of `h`: two pairs of matrices that agree on a row
    (possibly rows of different heights, a tile's row and the whole matrix's) give the same entry there. -/
theorem lin_row {n n' : Nat} (A h : Mat n 256) (A' h' : Mat n' 256) (Wl Wr : Mat 256 256) (b : Fin 256 → EReal)
    (r : Fin n) (r' : Fin n') (c : Fin 256) (hA : ∀ k, A r k = A' r' k) (hh : ∀ k, h r k = h' r' k) :
    lin A h Wl Wr b r c = lin A' h' Wl Wr b r' c := by
  unfold lin; simp only [hA, hh]

/-- The same for a normalised layer (its residual reads the same row). -/
theorem bn_row {n n' : Nat} (A h : Mat n 256) (A' h' : Mat n' 256) (Wl Wr : Mat 256 256) (b g bt mu var : Fin 256 → EReal)
    (r : Fin n) (r' : Fin n') (c : Fin 256) (hA : ∀ k, A r k = A' r' k) (hh : ∀ k, h r k = h' r' k) :
    bn A h Wl Wr b g bt mu var r c = bn A' h' Wl Wr b g bt mu var r' c := by
  unfold bn; rw [lin_row A h A' h' Wl Wr b r r' c hA hh, hh c]

/-- The neighbour mean by DIVISION: the sum over `max (deg r) 1`. -/
def meanDiv (S : Mat 50000 256) (d : Fin 50000 → EReal) : Mat 50000 256 :=
  fun r k => Ideal.div (S r k) (max (d r) oneW)

/-- The neighbour mean by the RECIPROCAL: the sum times `1 / max (deg r) 1`. -/
def meanMul (S : Mat 50000 256) (d : Fin 50000 → EReal) : Mat 50000 256 :=
  fun r k => S r k * Ideal.div oneW (max (d r) oneW)

/-- `max d 1` is never `0` on the extended reals. -/
theorem max_one_ne_zero (d : EReal) : max d (1 : EReal) ≠ 0 :=
  ne_of_gt (lt_of_lt_of_le (by exact_mod_cast zero_lt_one) (le_max_right d 1))

/-- Multiplying by the reciprocal of a nonzero divisor IS dividing by it; here the divisor is `max d 1`. -/
theorem meanMul_eq_meanDiv (S : Mat 50000 256) (d : Fin 50000 → EReal) : meanMul S d = meanDiv S d := by
  funext r k
  unfold meanMul meanDiv
  rw [oneW_eq, Ideal.div, Ideal.div, if_neg (max_one_ne_zero (d r)), if_neg (max_one_ne_zero (d r)), one_mul]

end Cert.Sage

end
-- ==== Proof.TileEntry.lean ====
/-
  One tile of a layer, read at an entry.

  A tile is 2000 consecutive rows.  The body computes, from the tile `x0` of the aggregated matrix, the tile `x1` of the
  node matrix, the two whole weight matrices and the parameter rows (each a 1 × 256 array), the two matrix products into
  a zero accumulator, adds the bias row, normalises, rectifies and adds the tile of the node matrix back.  A change of
  float format is the identity on the extended reals, a product into a zero accumulator is the plain sum over the
  contracted coordinate, and a 1 × 256 row stretched over the tile reads its entry `(0, q)` at `(p, q)`.  So the entry
  `(p, q)` of what the body stores is the layer's formula (`Cert.Sage.bn`, `Cert.Sage.lin`) of the tile's own rows.
-/
import proofs.«161210_j10050223473232_1_alg».proof.Proof.Gen.KernelIdeal.Skeleton
import proofs.«161210_j10050223473232_1_alg».proof.Proof.SageSpec
import Idealize.ShloMosaic.Lib.ValueIdx
import Idealize.ShloMosaic.Lib.Pipeline.Value
import Idealize.ShloMosaic.PureOps.Ideal.Laws

noncomputable section

open scoped BigOperators

namespace Cert.Sage

open Cert.KernelIdeal Cert.KernelIdeal.Gen Idealize.ShloMosaic Idealize.ShloMosaic.ValueIdx

/-- A 1 × 256 row stretched over a 2000 × 256 tile: entry `(p, q)` is the row's entry `(0, q)`. -/
theorem row_stretch (v : S1x256.Idx → EReal) :
    broadcastTo S2000x256 v broadcasts_S1x256_S2000x256 = fun i => v (ix2 (0 : Fin 1) (i 1)) := by
  funext i
  refine broadcastTo_apply v broadcasts_S1x256_S2000x256 i (ix2 (0 : Fin 1) (i 1)) fun a => ?_
  match a with
  | ⟨0, _⟩ => rfl
  | ⟨1, _⟩ => rfl

/-- A tile times a weight matrix into a zero accumulator: entry `(p, q)` is `Σ_k x (p, k) · w (k, q)`. -/
theorem tile_product (x : FVec Ideal S2000x256 .bf16) (w : FVec Ideal S256x256 .bf16) :
    (matmul (F := Ideal) (φ₁ := .bf16) (φ₂ := .bf16) dot_S2000x256_S256x256_S2000x256_1_0_0_1_n_n none x w (constant S2000x256 .f32 0x00000000#32)
      : S2000x256.Idx → EReal)
      = fun i => ∑ k : Fin 256, (x (ix2 (i 0) k) : EReal) * (w (ix2 k (i 1)) : EReal) := by
  funext i
  show FloatOps.matmul dot_S2000x256_S256x256_S2000x256_1_0_0_1_n_n none x w (constant S2000x256 .f32 0x00000000#32) i = _
  rw [Ideal.matmul_constant_zero_apply, ← Equiv.sum_comp (contrEquiv1 dot_S2000x256_S256x256_S2000x256_1_0_0_1_n_n 256 rfl rfl).symm]
  refine Finset.sum_congr rfl fun k _ => ?_
  have hk := contrEquiv1_symm_val dot_S2000x256_S256x256_S2000x256_1_0_0_1_n_n 256 rfl rfl k
  have el : dot_S2000x256_S256x256_S2000x256_1_0_0_1_n_n.lhsIdx i ((contrEquiv1 dot_S2000x256_S256x256_S2000x256_1_0_0_1_n_n 256 rfl rfl).symm k) = ix2 (i 0) k :=
    funext fun a => Fin.ext (by
      match a with
      | ⟨0, _⟩ =>
        show (dot_S2000x256_S256x256_S2000x256_1_0_0_1_n_n.lhsIdx i _ 0).val = (i 0).val
        unfold DotDims.lhsIdx
        rw [dif_neg (show ¬(0 : Fin S2000x256.rank) ∈ dot_S2000x256_S256x256_S2000x256_1_0_0_1_n_n.lhsBatch by decide),
          dif_pos (show (0 : Fin S2000x256.rank) ∈ dot_S2000x256_S256x256_S2000x256_1_0_0_1_n_n.lhsNonContracting by decide)]
        rfl
      | ⟨1, _⟩ => exact (dot_S2000x256_S256x256_S2000x256_1_0_0_1_n_n.lhsIdx_val_of_single rfl i _).trans hk)
  have er : dot_S2000x256_S256x256_S2000x256_1_0_0_1_n_n.rhsIdx i ((contrEquiv1 dot_S2000x256_S256x256_S2000x256_1_0_0_1_n_n 256 rfl rfl).symm k) = ix2 k (i 1) :=
    funext fun a => Fin.ext (by
      match a with
      | ⟨0, _⟩ => exact (dot_S2000x256_S256x256_S2000x256_1_0_0_1_n_n.rhsIdx_val_of_single rfl i _).trans hk
      | ⟨1, _⟩ =>
        show (dot_S2000x256_S256x256_S2000x256_1_0_0_1_n_n.rhsIdx i _ 1).val = (i 1).val
        unfold DotDims.rhsIdx
        rw [dif_neg (show ¬(1 : Fin S256x256.rank) ∈ dot_S2000x256_S256x256_S2000x256_1_0_0_1_n_n.rhsBatch by decide),
          dif_pos (show (1 : Fin S256x256.rank) ∈ dot_S2000x256_S256x256_S2000x256_1_0_0_1_n_n.rhsNonContracting by decide)]
        rfl)
  rw [el, er]
  rfl

/-- What the first normalised layer's body stores, at entry `(p, q)` of the tile. -/
theorem tile0_entry (x0 x1 : S2000x256.Idx → EReal) (x2 x3 : S256x256.Idx → EReal) (x4 x5 x6 x7 x8 : S1x256.Idx → EReal)
    (p : Fin 2000) (q : Fin 256) :
    k0_pay1 (F := Ideal) x1 (k0_pay2 (F := Ideal) x0 x1 x2 x3 x4 x5 x6 x7 x8) (ix2 p q)
      = bn (fun p k => x0 (ix2 p k)) (fun p k => x1 (ix2 p k)) (fun k q => x2 (ix2 k q)) (fun k q => x3 (ix2 k q))
          (fun q => x4 (ix2 (0 : Fin 1) q)) (fun q => x5 (ix2 (0 : Fin 1) q)) (fun q => x6 (ix2 (0 : Fin 1) q))
          (fun q => x7 (ix2 (0 : Fin 1) q)) (fun q => x8 (ix2 (0 : Fin 1) q)) p q := by
  unfold k0_pay1 k0_pay2
  simp only [shapeCast_self]
  erw [tile_product, tile_product, row_stretch, row_stretch, row_stretch, row_stretch, row_stretch]
  rfl

/-- What the second normalised layer's body stores, at entry `(p, q)` of the tile. -/
theorem tile1_entry (x0 x1 : S2000x256.Idx → EReal) (x2 x3 : S256x256.Idx → EReal) (x4 x5 x6 x7 x8 : S1x256.Idx → EReal)
    (p : Fin 2000) (q : Fin 256) :
    k1_pay1 (F := Ideal) (k1_pay2 (F := Ideal) x1) (k1_pay3 (F := Ideal) x0 x1 x2 x3 x4 x5 x6 x7 x8) (k1_pay4 (F := Ideal)) (ix2 p q)
      = bn (fun p k => x0 (ix2 p k)) (fun p k => x1 (ix2 p k)) (fun k q => x2 (ix2 k q)) (fun k q => x3 (ix2 k q))
          (fun q => x4 (ix2 (0 : Fin 1) q)) (fun q => x5 (ix2 (0 : Fin 1) q)) (fun q => x6 (ix2 (0 : Fin 1) q))
          (fun q => x7 (ix2 (0 : Fin 1) q)) (fun q => x8 (ix2 (0 : Fin 1) q)) p q := by
  unfold k1_pay1 k1_pay3 k1_pay4 k1_pay2
  simp only [shapeCast_self]
  erw [tile_product, tile_product, row_stretch, row_stretch, row_stretch, row_stretch, row_stretch]
  rfl

/-- What the last layer's body stores, at entry `(p, q)` of the tile: the linear part alone. -/
theorem tile2_entry (x0 x1 : S2000x256.Idx → EReal) (x2 x3 : S256x256.Idx → EReal) (x4 : S1x256.Idx → EReal)
    (p : Fin 2000) (q : Fin 256) :
    k2_pay1 (F := Ideal) x0 x1 x2 x3 x4 (ix2 p q)
      = lin (fun p k => x0 (ix2 p k)) (fun p k => x1 (ix2 p k)) (fun k q => x2 (ix2 k q)) (fun k q => x3 (ix2 k q))
          (fun q => x4 (ix2 (0 : Fin 1) q)) p q := by
  unfold k2_pay1
  simp only [shapeCast_self]
  erw [tile_product, tile_product, row_stretch]
  rfl

end Cert.Sage

end
-- ==== Proof.SpecCongr.lean ====
/-
  Two entries of a layer agree as soon as their ingredients agree where that entry reads them: one row of the
  aggregated matrix and of the node matrix (the two matrices may have different heights: a tile's row against the whole
  matrix's), one column of each weight matrix, one entry of each parameter vector.
-/
import proofs.«161210_j10050223473232_1_alg».proof.Proof.SageSpec

noncomputable section

open scoped BigOperators

namespace Cert.Sage

/-- A normalised layer's entry `(r, c)` against another's entry `(r', c)`. -/
theorem bn_congr {n n' : Nat} (A h : Mat n 256) (A' h' : Mat n' 256) (Wl Wl' Wr Wr' : Mat 256 256)
    (b b' g g' bt bt' mu mu' var var' : Fin 256 → EReal) (r : Fin n) (r' : Fin n') (c : Fin 256)
    (hA : ∀ k, A r k = A' r' k) (hh : ∀ k, h r k = h' r' k)
    (hWl : ∀ k, Wl k c = Wl' k c) (hWr : ∀ k, Wr k c = Wr' k c)
    (hb : b c = b' c) (hg : g c = g' c) (hbt : bt c = bt' c) (hmu : mu c = mu' c) (hvar : var c = var' c) :
    bn A h Wl Wr b g bt mu var r c = bn A' h' Wl' Wr' b' g' bt' mu' var' r' c := by
  unfold bn lin; simp only [hA, hh, hWl, hWr, hb, hg, hbt, hmu, hvar]

/-- The same for the linear part alone. -/
theorem lin_congr {n n' : Nat} (A h : Mat n 256) (A' h' : Mat n' 256) (Wl Wl' Wr Wr' : Mat 256 256) (b b' : Fin 256 → EReal)
    (r : Fin n) (r' : Fin n') (c : Fin 256) (hA : ∀ k, A r k = A' r' k) (hh : ∀ k, h r k = h' r' k)
    (hWl : ∀ k, Wl k c = Wl' k c) (hWr : ∀ k, Wr k c = Wr' k c) (hb : b c = b' c) :
    lin A h Wl Wr b r c = lin A' h' Wl' Wr' b' r' c := by
  unfold lin; simp only [hA, hh, hWl, hWr, hb]

end Cert.Sage

end
-- ==== Proof.Region2.lean ====
/-
  The last layer's region: from its 25 tiles to its whole output array.

  The region runs the body once per tile: point `t` of its 25 points reads rows `2000·t … 2000·t + 1999` of the
  aggregated matrix and of the node matrix, the two weight matrices and the parameter rows whole, and writes back the
  same rows of the output.  What point `t` writes back is, entry by entry, the layer's formula of the rows it read
  (one tile read at an entry), and that formula at row `2000·t + p` only looks at row `2000·t + p` of the two
  matrices: so the tile written back IS the block of ONE whole-array function (`layerAt2`) of the contents the
  region was entered with.  The 25 blocks tile the 50000 rows, so when the region is left the output array holds
  that function everywhere.
-/
import proofs.«161210_j10050223473232_1_alg».proof.Proof.Gen.KernelIdeal.Frame
import proofs.«161210_j10050223473232_1_alg».proof.Proof.TileEntry
import proofs.«161210_j10050223473232_1_alg».proof.Proof.SpecCongr

set_option maxRecDepth 16384

noncomputable section

namespace Cert.Sage

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros2 : (![0, 0] : Fin 2 → Nat) = fun _ => 0 := funext fun a => by fin_cases a <;> rfl

/-- The layer as ONE function of the contents the region is entered with. -/
def layerAt2 (c : Dev nD) : S50000x256.Idx → EReal := fun i =>
  lin (fun r k => (V c main_v60 : S50000x256.Idx → EReal) (ix2 r k)) (fun r k => (V c main_v48 : S50000x256.Idx → EReal) (ix2 r k))
    (fun k q => (V c main_arg8 : S256x256.Idx → EReal) (ix2 k q)) (fun k q => (V c main_arg9 : S256x256.Idx → EReal) (ix2 k q))
    (fun q => (V c main_v61 : S1x256.Idx → EReal) (ix2 (0 : Fin 1) q))
    (⟨(i 0).val, (i 0).isLt⟩ : Fin 50000) (⟨(i 1).val, (i 1).isLt⟩ : Fin 256)

/-- The printed index maps, decided over the 25 points: the two row-tiled inputs and the output sit at block `t` of
    the row axis, every other window at block 0. -/
theorem blocks2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

-- the blocks' index types depend on the grid point; checking the nine block reads against them is long but finite
set_option maxHeartbeats 1600000 in
/-- WHAT POINT `t` WRITES BACK is block `t` of the layer's function of the entry contents. -/
theorem flushed2 (c : Dev nD) (t : Fin cfg2.N) :
    (dat2 V c).flushed 5 t = ((cfg2.win 5).blk t).view.read (Elt Ideal) (layerAt2 V c) := by
  show (cfg2.win 5).cut (grid2.coords t) ((dat2 V c).after 5 t) = _
  rw [after2_5]
  unfold out2_5
  rw [View.canon_unit_zero zeros2]
  simp only [View.ld_unit_zero (S := S2000x256) zeros2, View.ld_unit_zero (S := S256x256) zeros2, View.ld_unit_zero (S := S1x256) zeros2]
  obtain ⟨a00, a01, a10, a11, a20, a21, a30, a31, a40, a41, a50, a51⟩ := blocks2 t
  funext j
  obtain ⟨p, q, rfl⟩ : ∃ (p : Fin 2000) (q : Fin 256), j = ix2 p q := ⟨j 0, j 1, eq_ix2 j⟩
  refine (tile2_entry _ _ _ _ _ p q).trans ?_
  show _ = layerAt2 V c (((cfg2.win 5).blk t).view.emb (ix2 p q))
  unfold layerAt2
  have hp : p.val < 2000 := p.isLt
  have hq : q.val < 256 := q.isLt
  have row0 : ∀ k : Fin 256, ((cfg2.win 0).blk t).view.emb (ix2 p k) = ix2 (⟨t.val * 2000 + p.val, by have := t.isLt; have hN : cfg2.N = 25 := N_2; omega⟩ : Fin 50000) k := fun k => by
    funext a; apply Fin.ext
    match a with
    | ⟨0, _⟩ => show win2_0.index t (0 : Fin 2) * 2000 + 1 * p.val = t.val * 2000 + p.val; omega
    | ⟨1, _⟩ => show win2_0.index t (1 : Fin 2) * 256 + 1 * k.val = k.val; omega
  have row1 : ∀ k : Fin 256, ((cfg2.win 1).blk t).view.emb (ix2 p k) = ix2 (⟨t.val * 2000 + p.val, by have := t.isLt; have hN : cfg2.N = 25 := N_2; omega⟩ : Fin 50000) k := fun k => by
    funext a; apply Fin.ext
    match a with
    | ⟨0, _⟩ => show win2_1.index t (0 : Fin 2) * 2000 + 1 * p.val = t.val * 2000 + p.val; omega
    | ⟨1, _⟩ => show win2_1.index t (1 : Fin 2) * 256 + 1 * k.val = k.val; omega
  have mat2 : ∀ (k q : Fin 256), ((cfg2.win 2).blk t).view.emb (ix2 k q) = ix2 k q := fun k q => by
    funext a; apply Fin.ext
    match a with
    | ⟨0, _⟩ => show win2_2.index t (0 : Fin 2) * 256 + 1 * k.val = k.val; omega
    | ⟨1, _⟩ => show win2_2.index t (1 : Fin 2) * 256 + 1 * q.val = q.val; omega
  have mat3 : ∀ (k q : Fin 256), ((cfg2.win 3).blk t).view.emb (ix2 k q) = ix2 k q := fun k q => by
    funext a; apply Fin.ext
    match a with
    | ⟨0, _⟩ => show win2_3.index t (0 : Fin 2) * 256 + 1 * k.val = k.val; omega
    | ⟨1, _⟩ => show win2_3.index t (1 : Fin 2) * 256 + 1 * q.val = q.val; omega
  have vec4 : ∀ q : Fin 256, ((cfg2.win 4).blk t).view.emb (ix2 (0 : Fin 1) q) = ix2 (0 : Fin 1) q := fun q => by
    funext a; apply Fin.ext
    match a with
    | ⟨0, _⟩ => show win2_4.index t (0 : Fin 2) * 1 + 1 * 0 = 0; omega
    | ⟨1, _⟩ => show win2_4.index t (1 : Fin 2) * 256 + 1 * q.val = q.val; omega
  have hout : (⟨((((cfg2.win 5).blk t).view.emb (ix2 p q)) 0).val, ((((cfg2.win 5).blk t).view.emb (ix2 p q)) 0).isLt⟩ : Fin 50000)
      = ⟨t.val * 2000 + p.val, by have := t.isLt; have hN : cfg2.N = 25 := N_2; omega⟩ := Fin.ext (by
    show win2_5.index t (0 : Fin 2) * 2000 + 1 * p.val = t.val * 2000 + p.val; omega)
  have hcol : (⟨((((cfg2.win 5).blk t).view.emb (ix2 p q)) 1).val, ((((cfg2.win 5).blk t).view.emb (ix2 p q)) 1).isLt⟩ : Fin 256) = q := Fin.ext (by
    show win2_5.index t (1 : Fin 2) * 256 + 1 * q.val = q.val; omega)
  rw [hout, hcol]
  exact lin_congr _ _ _ _ _ _ _ _ _ _ p _ q
    (fun k => congrArg (V c main_v60 : S50000x256.Idx → EReal) (row0 k))
    (fun k => congrArg (V c main_v48 : S50000x256.Idx → EReal) (row1 k))
    (fun k => congrArg (V c main_arg8 : S256x256.Idx → EReal) (mat2 k q))
    (fun k => congrArg (V c main_arg9 : S256x256.Idx → EReal) (mat3 k q))
    (congrArg (V c main_v61 : S1x256.Idx → EReal) (vec4 q))

/-- An index of the array is in point `t`'s block iff each coordinate is in the block's range on its axis. -/
theorem mem_block2 (t : Fin cfg2.N) (i : S50000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v62).slice (win2_5.rect t)).set ↔ _
  rw [View.set_slice_whole, Rect.mem_set_unit]
  exact Iff.rfl

/-- Every row is in some tile: row `r` in tile `r / 2000`. -/
theorem covered2 (i : S50000x256.Idx) : ∃ t : Fin cfg2.N, (cfg2.win 5).flush t = true ∧ i ∈ ((cfg2.win 5).blk t).view.set := by
  have hi0 : (i 0).val < 50000 := (i 0).isLt
  have hi1 : (i 1).val < 256 := (i 1).isLt
  have hN : cfg2.N = 25 := N_2
  let t : Fin cfg2.N := ⟨(i 0).val / 2000, by omega⟩
  obtain ⟨a00, a01, a10, a11, a20, a21, a30, a31, a40, a41, a50, a51⟩ := blocks2 t
  have ht : t.val = (i 0).val / 2000 := rfl
  refine ⟨t, flush2_5 t, ?_⟩
  rw [mem_block2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- THE OUTPUT ARRAY when the region is left: the layer's function of the contents it was entered with. -/
theorem region2_value (c : Dev nD) : (dat2 V c).arrAt 5 cfg2.N = layerAt2 V c :=
  (dat2 V c).arrAt_eq_of_cover 5 (layerAt2 V c) (fun t _ => flushed2 V c t) (covered2)

end Cert.Sage

end
-- ==== Proof.HostTerms.lean ====
/-
  The aggregation step that both programs run on the host between the layers, as functions of the edge list and of a
  node matrix.

  The edge list is a 2 × 800000 array of integers: row 0 the source node of each edge, row 1 its target.  A source
  number below zero is wrapped once by 50000 (the indexing convention of the array library).  The neighbour SUM of a
  node matrix `h` gathers row `src e` of `h` for every edge `e` and adds it into row `dst e` of a zero matrix; the
  DEGREE adds `1.0` into entry `dst e` of a zero vector.  How the gather and the accumulating scatter treat an index
  outside the array never matters here: they are the same functions, of the same arguments, in both programs, and
  stay closed.  The kernel's host side then multiplies the sum, row by row, by the column `1 / max (deg r) 1`
  (`aggMul`); read at an entry that is `Cert.Sage.meanMul` of the sum and the degree.
-/
import proofs.«161210_j10050223473232_1_alg».proof.KernelIdeal
import proofs.«161210_j10050223473232_1_alg».proof.Proof.SageSpec
import Idealize.ShloMosaic.Lib.ValueIdx
import Idealize.ShloMosaic.Lib.Pipeline.Value

noncomputable section

namespace Cert.Sage

open Cert.KernelIdeal Cert.KernelIdeal.Facts₀ Cert.KernelIdeal.Facts Idealize.ShloMosaic Idealize.ShloMosaic.ValueIdx

variable {F : FTy → Type} [FloatOps F] [hK : Cert.KernelIdeal.Facts]

/-- An edge list, a node matrix, a per-node vector. -/
abbrev Edges (F : FTy → Type) := (⟨S2x800000, .i32⟩ : BufTy).Contents (Elt F)
abbrev Nodes (F : FTy → Type) := (⟨S50000x256, .f32⟩ : BufTy).Contents (Elt F)
abbrev PerNode (F : FTy → Type) := (⟨S50000, .f32⟩ : BufTy).Contents (Elt F)

/-- Row 0 of the edge list, flat: the source node of each edge. -/
def srcFlat (e : Edges F) : (⟨S800000, .i32⟩ : BufTy).Contents (Elt F) :=
  shapeCast _ (extractStridedSlice S1x800000 ![0, 0] e slices_S2x800000_S1x800000_0_0) shapeCasts_S1x800000_S800000
/-- Row 1 of the edge list, flat: the target node of each edge. -/
def dstFlat (e : Edges F) : (⟨S800000, .i32⟩ : BufTy).Contents (Elt F) :=
  shapeCast _ (extractStridedSlice S1x800000 ![1, 0] e slices_S2x800000_S1x800000_1_0) shapeCasts_S1x800000_S800000
/-- The source nodes as a column of start indices, a negative number wrapped by 50000. -/
def srcCol (e : Edges F) : (⟨S800000x1, .i32⟩ : BufTy).Contents (Elt F) :=
  broadcastInDim S800000x1 ![0] bcast_S800000_S800000x1_0
    (select (cmpi .slt (srcFlat e) (broadcastInDim S800000 ![] bcast_S_S800000 (constantI S_ 32 0#32)))
      (addi (srcFlat e) (broadcastInDim S800000 ![] bcast_S_S800000 (constantI S_ 32 50000#32))) (srcFlat e))
/-- The target nodes as a column of scatter indices. -/
def dstCol (e : Edges F) : (⟨S800000x1, .i32⟩ : BufTy).Contents (Elt F) :=
  broadcastInDim S800000x1 ![0] bcast_S800000_S800000x1_0 (dstFlat e)

/-- The neighbour sum: row `src e` of `h` added into row `dst e`, over all edges. -/
def nbrSum (e : Edges F) (h : Nodes F) : Nodes F :=
  Host.scatterAdd scatter_S50000x256_S800000x1_S800000x256_1_0_0_1
    (broadcastInDim S50000x256 ![] bcast_S_S50000x256 (constant S_ .f32 0x00000000#32)) (dstCol e)
    (Host.gather gather_S50000x256_S800000x1_S800000x256_1_0_n_n_0_1_1256 h (srcCol e))

/-- The degree: `1.0` added into entry `dst e`, over all edges. -/
def degree (e : Edges F) : PerNode F :=
  Host.scatterAdd scatter_S50000_S800000x1_S800000_n_0_0_1
    (broadcastInDim S50000 ![] bcast_S_S50000 (constant S_ .f32 0x00000000#32)) (dstCol e)
    (broadcastInDim S800000 ![] bcast_S_S800000 (constant S_ .f32 0x3F800000#32))

/-- The column `1 / max (deg r) 1`. -/
def invDegCol (e : Edges F) : (⟨S50000x1, .f32⟩ : BufTy).Contents (Elt F) :=
  broadcastInDim S50000x1 ![0] bcast_S50000_S50000x1_0
    (Host.divf (broadcastInDim S50000 ![] bcast_S_S50000 (constant S_ .f32 0x3F800000#32))
      (maximumf (degree e) (broadcastInDim S50000 ![] bcast_S_S50000 (constant S_ .f32 0x3F800000#32))))

/-- The neighbour mean as the kernel's host side computes it: the sum times the reciprocal column, stretched over
    the 256 features. -/
def aggMul (e : Edges F) (h : Nodes F) : Nodes F :=
  mulf (nbrSum e h) (broadcastInDim S50000x256 ![0, 1] bcast_S50000x1_S50000x256_0_1 (invDegCol e))

/-- A per-node column stretched over the features reads, at `(r, k)`, the column's entry `(r, 0)`. -/
theorem col_stretch {α : Type} (y : S50000x1.Idx → α) (r : Fin 50000) (k : Fin 256) :
    broadcastInDim S50000x256 ![0, 1] bcast_S50000x1_S50000x256_0_1 y (ix2 r k) = y (ix2 r (0 : Fin 1)) :=
  broadcastInDim_apply _ bcast_S50000x1_S50000x256_0_1 y (ix2 r k) (ix2 r (0 : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])

/-- A per-node vector set up as a column reads, at `(r, 0)`, the vector's entry `r`. -/
theorem vec_as_col {α : Type} (y : S50000.Idx → α) (r : Fin 50000) :
    broadcastInDim S50000x1 ![0] bcast_S50000_S50000x1_0 y (ix2 r (0 : Fin 1)) = y (ix1 r) :=
  broadcastInDim_apply _ bcast_S50000_S50000x1_0 y (ix2 r (0 : Fin 1)) (ix1 r) (fun a => match a with
    | ⟨0, _⟩ => by show r.val = if (50000 : Nat) = 1 then 0 else r.val; rw [if_neg (by decide)])

/-- A scalar spread over the nodes reads the scalar everywhere. -/
theorem scalar_spread {α : Type} (y : S_.Idx → α) (r : Fin 50000) :
    broadcastInDim S50000 ![] bcast_S_S50000 y (ix1 r) = y ix0 :=
  broadcastInDim_apply _ bcast_S_S50000 y (ix1 r) ix0 (fun a => a.elim0)

/-- The kernel's host-side mean, at an entry: the neighbour sum times `1 / max (deg r) 1`. -/
theorem aggMul_entry (e : Edges Ideal) (h : Nodes Ideal) (r : Fin 50000) (k : Fin 256) :
    aggMul (F := Ideal) e h (ix2 r k)
      = meanMul (fun r k => (nbrSum (F := Ideal) e h : S50000x256.Idx → EReal) (ix2 r k))
          (fun r => (degree (F := Ideal) e : S50000.Idx → EReal) (ix1 r)) r k := by
  have hquot : ∀ (a b : FVec Ideal S50000 .f32) (i : S50000.Idx), Host.divf a b i = Ideal.div (a i) (b i) := fun _ _ _ => rfl
  have hone : (broadcastInDim S50000 ![] bcast_S_S50000 (constant (F := Ideal) S_ .f32 0x3F800000#32) : FVec Ideal S50000 .f32) (ix1 r) = oneW :=
    (scalar_spread _ r).trans rfl
  unfold aggMul invDegCol meanMul
  rw [mulf_apply, col_stretch, vec_as_col, hquot, maximumf_apply, hone]

end Cert.Sage

end
-- ==== Proof.Entry0.lean ====
/-
  What the first region is entered with.

  Before the first region @main's host operations cut the edge list into its two rows, count the degree, form the
  column `1 / max (deg r) 1`, gather and add up the neighbours' rows of the input matrix, multiply the sum by the
  column, and set the five parameter vectors of the first layer up as 1 × 256 rows.  Each buffer after the stretch
  is its operation's function of the buffers before it; composed down to the launch memory: the aggregated matrix
  is `aggMul` of the edge list and the input matrix, a parameter row is the vector recast, and the arguments are as
  launched.
-/
import proofs.«161210_j10050223473232_1_alg».proof.Proof.Gen.KernelIdeal.Frame
import proofs.«161210_j10050223473232_1_alg».proof.Proof.HostTerms

set_option maxRecDepth 16384

noncomputable section

namespace Cert.Sage

open Cert.KernelIdeal Cert.KernelIdeal.Gen Cert.KernelIdeal.Facts₀ Cert.KernelIdeal.Facts
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The flat source row, after the first stretch. -/
theorem first_srcFlat (c : Dev nD) :
    W1 m ρ c (Proc.devRef .tc main_v1) = srcFlat (F := Ideal) (m ((c : Thread nD τ).loc main_arg1)) := by
  show StableHlo.after hostOps0 (W0 m ρ c) (Proc.devRef .tc main_v1) = _
  after_results_simp
  rfl

/-- The flat target row, after the first stretch. -/
theorem first_dstFlat (c : Dev nD) :
    W1 m ρ c (Proc.devRef .tc main_v3) = dstFlat (F := Ideal) (m ((c : Thread nD τ).loc main_arg1)) := by
  show StableHlo.after hostOps0 (W0 m ρ c) (Proc.devRef .tc main_v3) = _
  after_results_simp
  rfl

/-- The reciprocal-degree column, after the first stretch. -/
theorem first_invDegCol (c : Dev nD) :
    W1 m ρ c (Proc.devRef .tc main_v12) = invDegCol (F := Ideal) (m ((c : Thread nD τ).loc main_arg1)) := by
  show StableHlo.after hostOps0 (W0 m ρ c) (Proc.devRef .tc main_v12) = _
  after_results_simp
  rfl

/-- The aggregated matrix the first region reads: the neighbour mean of the input matrix. -/
theorem first_agg (c : Dev nD) :
    W1 m ρ c (Proc.devRef .tc main_v24)
      = aggMul (F := Ideal) (m ((c : Thread nD τ).loc main_arg1)) (m ((c : Thread nD τ).loc main_arg0)) := by
  show StableHlo.after hostOps0 (W0 m ρ c) (Proc.devRef .tc main_v24) = _
  after_results_simp
  rfl

/-- The five parameter rows of the first layer: each vector recast as a 1 × 256 row. -/
theorem first_row25 (c : Dev nD) :
    W1 m ρ c (Proc.devRef .tc main_v25) = shapeCast _ (m ((c : Thread nD τ).loc main_arg4)) Facts₀.shapeCasts_S256_S1x256 := by
  show StableHlo.after hostOps0 (W0 m ρ c) (Proc.devRef .tc main_v25) = _
  after_results_simp
  rfl
theorem first_row26 (c : Dev nD) :
    W1 m ρ c (Proc.devRef .tc main_v26) = shapeCast _ (m ((c : Thread nD τ).loc main_arg11)) Facts₀.shapeCasts_S256_S1x256 := by
  show StableHlo.after hostOps0 (W0 m ρ c) (Proc.devRef .tc main_v26) = _
  after_results_simp
  rfl
theorem first_row27 (c : Dev nD) :
    W1 m ρ c (Proc.devRef .tc main_v27) = shapeCast _ (m ((c : Thread nD τ).loc main_arg12)) Facts₀.shapeCasts_S256_S1x256 := by
  show StableHlo.after hostOps0 (W0 m ρ c) (Proc.devRef .tc main_v27) = _
  after_results_simp
  rfl
theorem first_row28 (c : Dev nD) :
    W1 m ρ c (Proc.devRef .tc main_v28) = shapeCast _ (m ((c : Thread nD τ).loc main_arg13)) Facts₀.shapeCasts_S256_S1x256 := by
  show StableHlo.after hostOps0 (W0 m ρ c) (Proc.devRef .tc main_v28) = _
  after_results_simp
  rfl
theorem first_row29 (c : Dev nD) :
    W1 m ρ c (Proc.devRef .tc main_v29) = shapeCast _ (m ((c : Thread nD τ).loc main_arg14)) Facts₀.shapeCasts_S256_S1x256 := by
  show StableHlo.after hostOps0 (W0 m ρ c) (Proc.devRef .tc main_v29) = _
  after_results_simp
  rfl

/-- The arguments the first region reads are as launched: the stretch writes none of them. -/
theorem first_arg0 (c : Dev nD) : W1 m ρ c (Proc.devRef .tc main_arg0) = m ((c : Thread nD τ).loc main_arg0) := by
  show StableHlo.after hostOps0 (W0 m ρ c) (Proc.devRef .tc main_arg0) = _
  after_results_simp
theorem first_arg2 (c : Dev nD) : W1 m ρ c (Proc.devRef .tc main_arg2) = m ((c : Thread nD τ).loc main_arg2) := by
  show StableHlo.after hostOps0 (W0 m ρ c) (Proc.devRef .tc main_arg2) = _
  after_results_simp
theorem first_arg3 (c : Dev nD) : W1 m ρ c (Proc.devRef .tc main_arg3) = m ((c : Thread nD τ).loc main_arg3) := by
  show StableHlo.after hostOps0 (W0 m ρ c) (Proc.devRef .tc main_arg3) = _
  after_results_simp

/-- A vector recast as a 1 × 256 row reads, at `(0, q)`, the vector's entry `q`. -/
theorem row_of_vec {α : Type} (y : S256.Idx → α) (q : Fin 256) :
    shapeCast S1x256 y Facts₀.shapeCasts_S256_S1x256 (ix2 (0 : Fin 1) q) = y (ix1 q) :=
  shapeCast_apply y Facts₀.shapeCasts_S256_S1x256 (ix2 (0 : Fin 1) q) (ix1 q)
    (by rewrite [Shape.rowMajor_val_one, Shape.rowMajor_val_two]; show q.val = 0 * 256 + q.val; omega)

end Cert.Sage

end
-- ==== Proof.Entry1.lean ====
/-
  What the second region is entered with.

  The first region leaves its output array at the first layer's result and touches no other buffer that matters here:
  the two flat rows of the edge list, the reciprocal-degree column and the arguments it does not read are as the first
  stretch left them.  The second stretch gathers and adds up the neighbours' rows of the FIRST LAYER'S RESULT, multiplies
  by the same column, and sets the second layer's five parameter vectors up as rows.
-/
import proofs.«161210_j10050223473232_1_alg».proof.Proof.Entry0

set_option maxRecDepth 16384

noncomputable section

namespace Cert.Sage

open Cert.KernelIdeal Cert.KernelIdeal.Gen Cert.KernelIdeal.Facts₀ Cert.KernelIdeal.Facts
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- Arguments the first stretch does not write. -/
theorem first_arg5 (c : Dev nD) : W1 m ρ c (Proc.devRef .tc main_arg5) = m ((c : Thread nD τ).loc main_arg5) := by
  show StableHlo.after hostOps0 (W0 m ρ c) (Proc.devRef .tc main_arg5) = _
  after_results_simp
theorem first_arg6 (c : Dev nD) : W1 m ρ c (Proc.devRef .tc main_arg6) = m ((c : Thread nD τ).loc main_arg6) := by
  show StableHlo.after hostOps0 (W0 m ρ c) (Proc.devRef .tc main_arg6) = _
  after_results_simp
theorem first_arg7 (c : Dev nD) : W1 m ρ c (Proc.devRef .tc main_arg7) = m ((c : Thread nD τ).loc main_arg7) := by
  show StableHlo.after hostOps0 (W0 m ρ c) (Proc.devRef .tc main_arg7) = _
  after_results_simp
theorem first_arg15 (c : Dev nD) : W1 m ρ c (Proc.devRef .tc main_arg15) = m ((c : Thread nD τ).loc main_arg15) := by
  show StableHlo.after hostOps0 (W0 m ρ c) (Proc.devRef .tc main_arg15) = _
  after_results_simp
theorem first_arg16 (c : Dev nD) : W1 m ρ c (Proc.devRef .tc main_arg16) = m ((c : Thread nD τ).loc main_arg16) := by
  show StableHlo.after hostOps0 (W0 m ρ c) (Proc.devRef .tc main_arg16) = _
  after_results_simp
theorem first_arg17 (c : Dev nD) : W1 m ρ c (Proc.devRef .tc main_arg17) = m ((c : Thread nD τ).loc main_arg17) := by
  show StableHlo.after hostOps0 (W0 m ρ c) (Proc.devRef .tc main_arg17) = _
  after_results_simp
theorem first_arg18 (c : Dev nD) : W1 m ρ c (Proc.devRef .tc main_arg18) = m ((c : Thread nD τ).loc main_arg18) := by
  show StableHlo.after hostOps0 (W0 m ρ c) (Proc.devRef .tc main_arg18) = _
  after_results_simp
theorem first_arg8 (c : Dev nD) : W1 m ρ c (Proc.devRef .tc main_arg8) = m ((c : Thread nD τ).loc main_arg8) := by
  show StableHlo.after hostOps0 (W0 m ρ c) (Proc.devRef .tc main_arg8) = _
  after_results_simp
theorem first_arg9 (c : Dev nD) : W1 m ρ c (Proc.devRef .tc main_arg9) = m ((c : Thread nD τ).loc main_arg9) := by
  show StableHlo.after hostOps0 (W0 m ρ c) (Proc.devRef .tc main_arg9) = _
  after_results_simp
theorem first_arg10 (c : Dev nD) : W1 m ρ c (Proc.devRef .tc main_arg10) = m ((c : Thread nD τ).loc main_arg10) := by
  show StableHlo.after hostOps0 (W0 m ρ c) (Proc.devRef .tc main_arg10) = _
  after_results_simp

/-- Buffers the first region does not touch, when it is left. -/
theorem left0_srcFlat (c : Dev nD) : W2 m ρ c (Proc.devRef .tc main_v1) = srcFlat (F := Ideal) (m ((c : Thread nD τ).loc main_arg1)) :=
  (W2_of_ne m ρ c main_v1 (by decide)).trans (first_srcFlat m ρ c)
theorem left0_dstFlat (c : Dev nD) : W2 m ρ c (Proc.devRef .tc main_v3) = dstFlat (F := Ideal) (m ((c : Thread nD τ).loc main_arg1)) :=
  (W2_of_ne m ρ c main_v3 (by decide)).trans (first_dstFlat m ρ c)
theorem left0_invDegCol (c : Dev nD) : W2 m ρ c (Proc.devRef .tc main_v12) = invDegCol (F := Ideal) (m ((c : Thread nD τ).loc main_arg1)) :=
  (W2_of_ne m ρ c main_v12 (by decide)).trans (first_invDegCol m ρ c)
theorem left0_arg5 (c : Dev nD) : W2 m ρ c (Proc.devRef .tc main_arg5) = m ((c : Thread nD τ).loc main_arg5) :=
  (W2_of_ne m ρ c main_arg5 (by decide)).trans (first_arg5 m ρ c)
theorem left0_arg6 (c : Dev nD) : W2 m ρ c (Proc.devRef .tc main_arg6) = m ((c : Thread nD τ).loc main_arg6) :=
  (W2_of_ne m ρ c main_arg6 (by decide)).trans (first_arg6 m ρ c)
theorem left0_arg7 (c : Dev nD) : W2 m ρ c (Proc.devRef .tc main_arg7) = m ((c : Thread nD τ).loc main_arg7) :=
  (W2_of_ne m ρ c main_arg7 (by decide)).trans (first_arg7 m ρ c)
theorem left0_arg15 (c : Dev nD) : W2 m ρ c (Proc.devRef .tc main_arg15) = m ((c : Thread nD τ).loc main_arg15) :=
  (W2_of_ne m ρ c main_arg15 (by decide)).trans (first_arg15 m ρ c)
theorem left0_arg16 (c : Dev nD) : W2 m ρ c (Proc.devRef .tc main_arg16) = m ((c : Thread nD τ).loc main_arg16) :=
  (W2_of_ne m ρ c main_arg16 (by decide)).trans (first_arg16 m ρ c)
theorem left0_arg17 (c : Dev nD) : W2 m ρ c (Proc.devRef .tc main_arg17) = m ((c : Thread nD τ).loc main_arg17) :=
  (W2_of_ne m ρ c main_arg17 (by decide)).trans (first_arg17 m ρ c)
theorem left0_arg18 (c : Dev nD) : W2 m ρ c (Proc.devRef .tc main_arg18) = m ((c : Thread nD τ).loc main_arg18) :=
  (W2_of_ne m ρ c main_arg18 (by decide)).trans (first_arg18 m ρ c)
theorem left0_arg8 (c : Dev nD) : W2 m ρ c (Proc.devRef .tc main_arg8) = m ((c : Thread nD τ).loc main_arg8) :=
  (W2_of_ne m ρ c main_arg8 (by decide)).trans (first_arg8 m ρ c)
theorem left0_arg9 (c : Dev nD) : W2 m ρ c (Proc.devRef .tc main_arg9) = m ((c : Thread nD τ).loc main_arg9) :=
  (W2_of_ne m ρ c main_arg9 (by decide)).trans (first_arg9 m ρ c)
theorem left0_arg10 (c : Dev nD) : W2 m ρ c (Proc.devRef .tc main_arg10) = m ((c : Thread nD τ).loc main_arg10) :=
  (W2_of_ne m ρ c main_arg10 (by decide)).trans (first_arg10 m ρ c)

/-- The aggregated matrix the second region reads: the neighbour mean of what the first region left. -/
theorem second_agg (c : Dev nD) :
    W3 m ρ c (Proc.devRef .tc main_v42)
      = aggMul (F := Ideal) (m ((c : Thread nD τ).loc main_arg1)) (W2 m ρ c (Proc.devRef .tc main_v30)) := by
  show StableHlo.after hostOps1 (W2 m ρ c) (Proc.devRef .tc main_v42) = _
  after_results_simp
  rw [left0_srcFlat, left0_dstFlat, left0_invDegCol]
  rfl

/-- The node matrix the second region reads is what the first region left. -/
theorem second_h (c : Dev nD) : W3 m ρ c (Proc.devRef .tc main_v30) = W2 m ρ c (Proc.devRef .tc main_v30) := by
  show StableHlo.after hostOps1 (W2 m ρ c) (Proc.devRef .tc main_v30) = _
  after_results_simp

/-- The weights of the second layer are as launched. -/
theorem second_arg5 (c : Dev nD) : W3 m ρ c (Proc.devRef .tc main_arg5) = m ((c : Thread nD τ).loc main_arg5) := by
  show StableHlo.after hostOps1 (W2 m ρ c) (Proc.devRef .tc main_arg5) = _
  after_results_simp
  exact left0_arg5 m ρ c
theorem second_arg6 (c : Dev nD) : W3 m ρ c (Proc.devRef .tc main_arg6) = m ((c : Thread nD τ).loc main_arg6) := by
  show StableHlo.after hostOps1 (W2 m ρ c) (Proc.devRef .tc main_arg6) = _
  after_results_simp
  exact left0_arg6 m ρ c

/-- The five parameter rows of the second layer. -/
theorem second_row43 (c : Dev nD) :
    W3 m ρ c (Proc.devRef .tc main_v43) = shapeCast _ (m ((c : Thread nD τ).loc main_arg7)) Facts₀.shapeCasts_S256_S1x256 := by
  show StableHlo.after hostOps1 (W2 m ρ c) (Proc.devRef .tc main_v43) = _
  after_results_simp
  rw [left0_arg7]
  rfl
theorem second_row44 (c : Dev nD) :
    W3 m ρ c (Proc.devRef .tc main_v44) = shapeCast _ (m ((c : Thread nD τ).loc main_arg15)) Facts₀.shapeCasts_S256_S1x256 := by
  show StableHlo.after hostOps1 (W2 m ρ c) (Proc.devRef .tc main_v44) = _
  after_results_simp
  rw [left0_arg15]
  rfl
theorem second_row45 (c : Dev nD) :
    W3 m ρ c (Proc.devRef .tc main_v45) = shapeCast _ (m ((c : Thread nD τ).loc main_arg16)) Facts₀.shapeCasts_S256_S1x256 := by
  show StableHlo.after hostOps1 (W2 m ρ c) (Proc.devRef .tc main_v45) = _
  after_results_simp
  rw [left0_arg16]
  rfl
theorem second_row46 (c : Dev nD) :
    W3 m ρ c (Proc.devRef .tc main_v46) = shapeCast _ (m ((c : Thread nD τ).loc main_arg17)) Facts₀.shapeCasts_S256_S1x256 := by
  show StableHlo.after hostOps1 (W2 m ρ c) (Proc.devRef .tc main_v46) = _
  after_results_simp
  rw [left0_arg17]
  rfl
theorem second_row47 (c : Dev nD) :
    W3 m ρ c (Proc.devRef .tc main_v47) = shapeCast _ (m ((c : Thread nD τ).loc main_arg18)) Facts₀.shapeCasts_S256_S1x256 := by
  show StableHlo.after hostOps1 (W2 m ρ c) (Proc.devRef .tc main_v47) = _
  after_results_simp
  rw [left0_arg18]
  rfl

/-- Buffers the second stretch does not write. -/
theorem second_srcFlat (c : Dev nD) : W3 m ρ c (Proc.devRef .tc main_v1) = srcFlat (F := Ideal) (m ((c : Thread nD τ).loc main_arg1)) := by
  show StableHlo.after hostOps1 (W2 m ρ c) (Proc.devRef .tc main_v1) = _
  after_results_simp
  exact left0_srcFlat m ρ c
theorem second_dstFlat (c : Dev nD) : W3 m ρ c (Proc.devRef .tc main_v3) = dstFlat (F := Ideal) (m ((c : Thread nD τ).loc main_arg1)) := by
  show StableHlo.after hostOps1 (W2 m ρ c) (Proc.devRef .tc main_v3) = _
  after_results_simp
  exact left0_dstFlat m ρ c
theorem second_invDegCol (c : Dev nD) : W3 m ρ c (Proc.devRef .tc main_v12) = invDegCol (F := Ideal) (m ((c : Thread nD τ).loc main_arg1)) := by
  show StableHlo.after hostOps1 (W2 m ρ c) (Proc.devRef .tc main_v12) = _
  after_results_simp
  exact left0_invDegCol m ρ c
theorem second_arg8 (c : Dev nD) : W3 m ρ c (Proc.devRef .tc main_arg8) = m ((c : Thread nD τ).loc main_arg8) := by
  show StableHlo.after hostOps1 (W2 m ρ c) (Proc.devRef .tc main_arg8) = _
  after_results_simp
  exact left0_arg8 m ρ c
theorem second_arg9 (c : Dev nD) : W3 m ρ c (Proc.devRef .tc main_arg9) = m ((c : Thread nD τ).loc main_arg9) := by
  show StableHlo.after hostOps1 (W2 m ρ c) (Proc.devRef .tc main_arg9) = _
  after_results_simp
  exact left0_arg9 m ρ c
theorem second_arg10 (c : Dev nD) : W3 m ρ c (Proc.devRef .tc main_arg10) = m ((c : Thread nD τ).loc main_arg10) := by
  show StableHlo.after hostOps1 (W2 m ρ c) (Proc.devRef .tc main_arg10) = _
  after_results_simp
  exact left0_arg10 m ρ c

end Cert.Sage

end
-- ==== Proof.Entry2.lean ====
/-
  What the third region is entered with.

  The second region leaves its output array at the second layer's result; the edge rows, the reciprocal-degree column
  and the last layer's arguments are untouched.  The third stretch gathers and adds up the neighbours' rows of the
  SECOND LAYER'S RESULT, multiplies by the same column, and sets the last bias vector up as a row.
-/
import proofs.«161210_j10050223473232_1_alg».proof.Proof.Entry1

set_option maxRecDepth 16384

noncomputable section

namespace Cert.Sage

open Cert.KernelIdeal Cert.KernelIdeal.Gen Cert.KernelIdeal.Facts₀ Cert.KernelIdeal.Facts
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- Buffers the second region does not touch, when it is left. -/
theorem left1_srcFlat (c : Dev nD) : W4 m ρ c (Proc.devRef .tc main_v1) = srcFlat (F := Ideal) (m ((c : Thread nD τ).loc main_arg1)) :=
  (W4_of_ne m ρ c main_v1 (by decide)).trans (second_srcFlat m ρ c)
theorem left1_dstFlat (c : Dev nD) : W4 m ρ c (Proc.devRef .tc main_v3) = dstFlat (F := Ideal) (m ((c : Thread nD τ).loc main_arg1)) :=
  (W4_of_ne m ρ c main_v3 (by decide)).trans (second_dstFlat m ρ c)
theorem left1_invDegCol (c : Dev nD) : W4 m ρ c (Proc.devRef .tc main_v12) = invDegCol (F := Ideal) (m ((c : Thread nD τ).loc main_arg1)) :=
  (W4_of_ne m ρ c main_v12 (by decide)).trans (second_invDegCol m ρ c)
theorem left1_arg8 (c : Dev nD) : W4 m ρ c (Proc.devRef .tc main_arg8) = m ((c : Thread nD τ).loc main_arg8) :=
  (W4_of_ne m ρ c main_arg8 (by decide)).trans (second_arg8 m ρ c)
theorem left1_arg9 (c : Dev nD) : W4 m ρ c (Proc.devRef .tc main_arg9) = m ((c : Thread nD τ).loc main_arg9) :=
  (W4_of_ne m ρ c main_arg9 (by decide)).trans (second_arg9 m ρ c)
theorem left1_arg10 (c : Dev nD) : W4 m ρ c (Proc.devRef .tc main_arg10) = m ((c : Thread nD τ).loc main_arg10) :=
  (W4_of_ne m ρ c main_arg10 (by decide)).trans (second_arg10 m ρ c)

/-- The aggregated matrix the third region reads: the neighbour mean of what the second region left. -/
theorem third_agg (c : Dev nD) :
    W5 m ρ c (Proc.devRef .tc main_v60)
      = aggMul (F := Ideal) (m ((c : Thread nD τ).loc main_arg1)) (W4 m ρ c (Proc.devRef .tc main_v48)) := by
  show StableHlo.after hostOps2 (W4 m ρ c) (Proc.devRef .tc main_v60) = _
  after_results_simp
  rw [left1_srcFlat, left1_dstFlat, left1_invDegCol]
  rfl

/-- The node matrix the third region reads is what the second region left. -/
theorem third_h (c : Dev nD) : W5 m ρ c (Proc.devRef .tc main_v48) = W4 m ρ c (Proc.devRef .tc main_v48) := by
  show StableHlo.after hostOps2 (W4 m ρ c) (Proc.devRef .tc main_v48) = _
  after_results_simp

/-- The weights of the last layer are as launched, and its bias is the vector recast as a row. -/
theorem third_arg8 (c : Dev nD) : W5 m ρ c (Proc.devRef .tc main_arg8) = m ((c : Thread nD τ).loc main_arg8) := by
  show StableHlo.after hostOps2 (W4 m ρ c) (Proc.devRef .tc main_arg8) = _
  after_results_simp
  exact left1_arg8 m ρ c
theorem third_arg9 (c : Dev nD) : W5 m ρ c (Proc.devRef .tc main_arg9) = m ((c : Thread nD τ).loc main_arg9) := by
  show StableHlo.after hostOps2 (W4 m ρ c) (Proc.devRef .tc main_arg9) = _
  after_results_simp
  exact left1_arg9 m ρ c
theorem third_row61 (c : Dev nD) :
    W5 m ρ c (Proc.devRef .tc main_v61) = shapeCast _ (m ((c : Thread nD τ).loc main_arg10)) Facts₀.shapeCasts_S256_S1x256 := by
  show StableHlo.after hostOps2 (W4 m ρ c) (Proc.devRef .tc main_v61) = _
  after_results_simp
  rw [left1_arg10]
  rfl

end Cert.Sage

end
-- ==== Proof.Region1.lean ====
/-
  The second normalised layer's region: from its 25 tiles to its whole output array.

  The region runs the body once per tile: point `t` of its 25 points reads rows `2000·t … 2000·t + 1999` of the
  aggregated matrix and of the node matrix, the two weight matrices and the parameter rows whole, and writes back the
  same rows of the output.  What point `t` writes back is, entry by entry, the layer's formula of the rows it read
  (one tile read at an entry), and that formula at row `2000·t + p` only looks at row `2000·t + p` of the two
  matrices: so the tile written back IS the block of ONE whole-array function (`layerAt1`) of the contents the
  region was entered with.  The 25 blocks tile the 50000 rows, so when the region is left the output array holds
  that function everywhere.
-/
import proofs.«161210_j10050223473232_1_alg».proof.Proof.Gen.KernelIdeal.Frame
import proofs.«161210_j10050223473232_1_alg».proof.Proof.TileEntry
import proofs.«161210_j10050223473232_1_alg».proof.Proof.SpecCongr

set_option maxRecDepth 16384

noncomputable section

namespace Cert.Sage

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros1 : (![0, 0] : Fin 2 → Nat) = fun _ => 0 := funext fun a => by fin_cases a <;> rfl

/-- The layer as ONE function of the contents the region is entered with. -/
def layerAt1 (c : Dev nD) : S50000x256.Idx → EReal := fun i =>
  bn (fun r k => (V c main_v42 : S50000x256.Idx → EReal) (ix2 r k)) (fun r k => (V c main_v30 : S50000x256.Idx → EReal) (ix2 r k))
    (fun k q => (V c main_arg5 : S256x256.Idx → EReal) (ix2 k q)) (fun k q => (V c main_arg6 : S256x256.Idx → EReal) (ix2 k q))
    (fun q => (V c main_v43 : S1x256.Idx → EReal) (ix2 (0 : Fin 1) q))
    (fun q => (V c main_v44 : S1x256.Idx → EReal) (ix2 (0 : Fin 1) q))
    (fun q => (V c main_v45 : S1x256.Idx → EReal) (ix2 (0 : Fin 1) q))
    (fun q => (V c main_v46 : S1x256.Idx → EReal) (ix2 (0 : Fin 1) q))
    (fun q => (V c main_v47 : S1x256.Idx → EReal) (ix2 (0 : Fin 1) q))
    (⟨(i 0).val, (i 0).isLt⟩ : Fin 50000) (⟨(i 1).val, (i 1).isLt⟩ : Fin 256)

/-- The printed index maps, decided over the 25 points: the two row-tiled inputs and the output sit at block `t` of
    the row axis, every other window at block 0. -/
theorem blocks1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

-- the blocks' index types depend on the grid point; checking the nine block reads against them is long but finite
set_option maxHeartbeats 1600000 in
/-- WHAT POINT `t` WRITES BACK is block `t` of the layer's function of the entry contents. -/
theorem flushed1 (c : Dev nD) (t : Fin cfg1.N) :
    (dat1 V c).flushed 9 t = ((cfg1.win 9).blk t).view.read (Elt Ideal) (layerAt1 V c) := by
  show (cfg1.win 9).cut (grid1.coords t) ((dat1 V c).after 9 t) = _
  rw [after1_9]
  unfold out1_9
  rw [View.canon_unit_zero zeros1]
  simp only [View.ld_unit_zero (S := S2000x256) zeros1, View.ld_unit_zero (S := S256x256) zeros1, View.ld_unit_zero (S := S1x256) zeros1]
  obtain ⟨a00, a01, a10, a11, a20, a21, a30, a31, a40, a41, a50, a51, a60, a61, a70, a71, a80, a81, a90, a91⟩ := blocks1 t
  funext j
  obtain ⟨p, q, rfl⟩ : ∃ (p : Fin 2000) (q : Fin 256), j = ix2 p q := ⟨j 0, j 1, eq_ix2 j⟩
  refine (tile1_entry _ _ _ _ _ _ _ _ _ p q).trans ?_
  show _ = layerAt1 V c (((cfg1.win 9).blk t).view.emb (ix2 p q))
  unfold layerAt1
  have hp : p.val < 2000 := p.isLt
  have hq : q.val < 256 := q.isLt
  have row0 : ∀ k : Fin 256, ((cfg1.win 0).blk t).view.emb (ix2 p k) = ix2 (⟨t.val * 2000 + p.val, by have := t.isLt; have hN : cfg1.N = 25 := N_1; omega⟩ : Fin 50000) k := fun k => by
    funext a; apply Fin.ext
    match a with
    | ⟨0, _⟩ => show win1_0.index t (0 : Fin 2) * 2000 + 1 * p.val = t.val * 2000 + p.val; omega
    | ⟨1, _⟩ => show win1_0.index t (1 : Fin 2) * 256 + 1 * k.val = k.val; omega
  have row1 : ∀ k : Fin 256, ((cfg1.win 1).blk t).view.emb (ix2 p k) = ix2 (⟨t.val * 2000 + p.val, by have := t.isLt; have hN : cfg1.N = 25 := N_1; omega⟩ : Fin 50000) k := fun k => by
    funext a; apply Fin.ext
    match a with
    | ⟨0, _⟩ => show win1_1.index t (0 : Fin 2) * 2000 + 1 * p.val = t.val * 2000 + p.val; omega
    | ⟨1, _⟩ => show win1_1.index t (1 : Fin 2) * 256 + 1 * k.val = k.val; omega
  have mat2 : ∀ (k q : Fin 256), ((cfg1.win 2).blk t).view.emb (ix2 k q) = ix2 k q := fun k q => by
    funext a; apply Fin.ext
    match a with
    | ⟨0, _⟩ => show win1_2.index t (0 : Fin 2) * 256 + 1 * k.val = k.val; omega
    | ⟨1, _⟩ => show win1_2.index t (1 : Fin 2) * 256 + 1 * q.val = q.val; omega
  have mat3 : ∀ (k q : Fin 256), ((cfg1.win 3).blk t).view.emb (ix2 k q) = ix2 k q := fun k q => by
    funext a; apply Fin.ext
    match a with
    | ⟨0, _⟩ => show win1_3.index t (0 : Fin 2) * 256 + 1 * k.val = k.val; omega
    | ⟨1, _⟩ => show win1_3.index t (1 : Fin 2) * 256 + 1 * q.val = q.val; omega
  have vec4 : ∀ q : Fin 256, ((cfg1.win 4).blk t).view.emb (ix2 (0 : Fin 1) q) = ix2 (0 : Fin 1) q := fun q => by
    funext a; apply Fin.ext
    match a with
    | ⟨0, _⟩ => show win1_4.index t (0 : Fin 2) * 1 + 1 * 0 = 0; omega
    | ⟨1, _⟩ => show win1_4.index t (1 : Fin 2) * 256 + 1 * q.val = q.val; omega
  have vec5 : ∀ q : Fin 256, ((cfg1.win 5).blk t).view.emb (ix2 (0 : Fin 1) q) = ix2 (0 : Fin 1) q := fun q => by
    funext a; apply Fin.ext
    match a with
    | ⟨0, _⟩ => show win1_5.index t (0 : Fin 2) * 1 + 1 * 0 = 0; omega
    | ⟨1, _⟩ => show win1_5.index t (1 : Fin 2) * 256 + 1 * q.val = q.val; omega
  have vec6 : ∀ q : Fin 256, ((cfg1.win 6).blk t).view.emb (ix2 (0 : Fin 1) q) = ix2 (0 : Fin 1) q := fun q => by
    funext a; apply Fin.ext
    match a with
    | ⟨0, _⟩ => show win1_6.index t (0 : Fin 2) * 1 + 1 * 0 = 0; omega
    | ⟨1, _⟩ => show win1_6.index t (1 : Fin 2) * 256 + 1 * q.val = q.val; omega
  have vec7 : ∀ q : Fin 256, ((cfg1.win 7).blk t).view.emb (ix2 (0 : Fin 1) q) = ix2 (0 : Fin 1) q := fun q => by
    funext a; apply Fin.ext
    match a with
    | ⟨0, _⟩ => show win1_7.index t (0 : Fin 2) * 1 + 1 * 0 = 0; omega
    | ⟨1, _⟩ => show win1_7.index t (1 : Fin 2) * 256 + 1 * q.val = q.val; omega
  have vec8 : ∀ q : Fin 256, ((cfg1.win 8).blk t).view.emb (ix2 (0 : Fin 1) q) = ix2 (0 : Fin 1) q := fun q => by
    funext a; apply Fin.ext
    match a with
    | ⟨0, _⟩ => show win1_8.index t (0 : Fin 2) * 1 + 1 * 0 = 0; omega
    | ⟨1, _⟩ => show win1_8.index t (1 : Fin 2) * 256 + 1 * q.val = q.val; omega
  have hout : (⟨((((cfg1.win 9).blk t).view.emb (ix2 p q)) 0).val, ((((cfg1.win 9).blk t).view.emb (ix2 p q)) 0).isLt⟩ : Fin 50000)
      = ⟨t.val * 2000 + p.val, by have := t.isLt; have hN : cfg1.N = 25 := N_1; omega⟩ := Fin.ext (by
    show win1_9.index t (0 : Fin 2) * 2000 + 1 * p.val = t.val * 2000 + p.val; omega)
  have hcol : (⟨((((cfg1.win 9).blk t).view.emb (ix2 p q)) 1).val, ((((cfg1.win 9).blk t).view.emb (ix2 p q)) 1).isLt⟩ : Fin 256) = q := Fin.ext (by
    show win1_9.index t (1 : Fin 2) * 256 + 1 * q.val = q.val; omega)
  rw [hout, hcol]
  exact bn_congr _ _ _ _ _ _ _ _ _ _ _ _ _ _ _ _ _ _ p _ q
    (fun k => congrArg (V c main_v42 : S50000x256.Idx → EReal) (row0 k))
    (fun k => congrArg (V c main_v30 : S50000x256.Idx → EReal) (row1 k))
    (fun k => congrArg (V c main_arg5 : S256x256.Idx → EReal) (mat2 k q))
    (fun k => congrArg (V c main_arg6 : S256x256.Idx → EReal) (mat3 k q))
    (congrArg (V c main_v43 : S1x256.Idx → EReal) (vec4 q))
    (congrArg (V c main_v44 : S1x256.Idx → EReal) (vec5 q))
    (congrArg (V c main_v45 : S1x256.Idx → EReal) (vec6 q))
    (congrArg (V c main_v46 : S1x256.Idx → EReal) (vec7 q))
    (congrArg (V c main_v47 : S1x256.Idx → EReal) (vec8 q))

/-- An index of the array is in point `t`'s block iff each coordinate is in the block's range on its axis. -/
theorem mem_block1 (t : Fin cfg1.N) (i : S50000x256.Idx) :
    i ∈ ((cfg1.win 9).blk t).view.set ↔ ∀ a : Fin 2, win1_9.index t a * S2000x256.size a ≤ (i a).val ∧ (i a).val < win1_9.index t a * S2000x256.size a + S2000x256.size a := by
  show i ∈ ((View.whole main_v48).slice (win1_9.rect t)).set ↔ _
  rw [View.set_slice_whole, Rect.mem_set_unit]
  exact Iff.rfl

/-- Every row is in some tile: row `r` in tile `r / 2000`. -/
theorem covered1 (i : S50000x256.Idx) : ∃ t : Fin cfg1.N, (cfg1.win 9).flush t = true ∧ i ∈ ((cfg1.win 9).blk t).view.set := by
  have hi0 : (i 0).val < 50000 := (i 0).isLt
  have hi1 : (i 1).val < 256 := (i 1).isLt
  have hN : cfg1.N = 25 := N_1
  let t : Fin cfg1.N := ⟨(i 0).val / 2000, by omega⟩
  obtain ⟨a00, a01, a10, a11, a20, a21, a30, a31, a40, a41, a50, a51, a60, a61, a70, a71, a80, a81, a90, a91⟩ := blocks1 t
  have ht : t.val = (i 0).val / 2000 := rfl
  refine ⟨t, flush1_9 t, ?_⟩
  rw [mem_block1]
  intro a
  match a with
  | ⟨0, _⟩ => show win1_9.index t (0 : Fin 2) * 2000 ≤ (i 0).val ∧ (i 0).val < win1_9.index t (0 : Fin 2) * 2000 + 2000; omega
  | ⟨1, _⟩ => show win1_9.index t (1 : Fin 2) * 256 ≤ (i 1).val ∧ (i 1).val < win1_9.index t (1 : Fin 2) * 256 + 256; omega

/-- THE OUTPUT ARRAY when the region is left: the layer's function of the contents it was entered with. -/
theorem region1_value (c : Dev nD) : (dat1 V c).arrAt 9 cfg1.N = layerAt1 V c :=
  (dat1 V c).arrAt_eq_of_cover 9 (layerAt1 V c) (fun t _ => flushed1 V c t) (covered1)

end Cert.Sage

end
-- ==== Proof.Region0.lean ====
/-
  The first normalised layer's region: from its 25 tiles to its whole output array.

  The region runs the body once per tile: point `t` of its 25 points reads rows `2000·t … 2000·t + 1999` of the
  aggregated matrix and of the node matrix, the two weight matrices and the parameter rows whole, and writes back the
  same rows of the output.  What point `t` writes back is, entry by entry, the layer's formula of the rows it read
  (one tile read at an entry), and that formula at row `2000·t + p` only looks at row `2000·t + p` of the two
  matrices: so the tile written back IS the block of ONE whole-array function (`layerAt0`) of the contents the
  region was entered with.  The 25 blocks tile the 50000 rows, so when the region is left the output array holds
  that function everywhere.
-/
import proofs.«161210_j10050223473232_1_alg».proof.Proof.Gen.KernelIdeal.Frame
import proofs.«161210_j10050223473232_1_alg».proof.Proof.TileEntry
import proofs.«161210_j10050223473232_1_alg».proof.Proof.SpecCongr

set_option maxRecDepth 16384

noncomputable section

namespace Cert.Sage

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zeros0 : (![0, 0] : Fin 2 → Nat) = fun _ => 0 := funext fun a => by fin_cases a <;> rfl

/-- The layer as ONE function of the contents the region is entered with. -/
def layerAt0 (c : Dev nD) : S50000x256.Idx → EReal := fun i =>
  bn (fun r k => (V c main_v24 : S50000x256.Idx → EReal) (ix2 r k)) (fun r k => (V c main_arg0 : S50000x256.Idx → EReal) (ix2 r k))
    (fun k q => (V c main_arg2 : S256x256.Idx → EReal) (ix2 k q)) (fun k q => (V c main_arg3 : S256x256.Idx → EReal) (ix2 k q))
    (fun q => (V c main_v25 : S1x256.Idx → EReal) (ix2 (0 : Fin 1) q))
    (fun q => (V c main_v26 : S1x256.Idx → EReal) (ix2 (0 : Fin 1) q))
    (fun q => (V c main_v27 : S1x256.Idx → EReal) (ix2 (0 : Fin 1) q))
    (fun q => (V c main_v28 : S1x256.Idx → EReal) (ix2 (0 : Fin 1) q))
    (fun q => (V c main_v29 : S1x256.Idx → EReal) (ix2 (0 : Fin 1) q))
    (⟨(i 0).val, (i 0).isLt⟩ : Fin 50000) (⟨(i 1).val, (i 1).isLt⟩ : Fin 256)

/-- The printed index maps, decided over the 25 points: the two row-tiled inputs and the output sit at block `t` of
    the row axis, every other window at block 0. -/
theorem blocks0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

-- the blocks' index types depend on the grid point; checking the nine block reads against them is long but finite
set_option maxHeartbeats 1600000 in
/-- WHAT POINT `t` WRITES BACK is block `t` of the layer's function of the entry contents. -/
theorem flushed0 (c : Dev nD) (t : Fin cfg0.N) :
    (dat0 V c).flushed 9 t = ((cfg0.win 9).blk t).view.read (Elt Ideal) (layerAt0 V c) := by
  show (cfg0.win 9).cut (grid0.coords t) ((dat0 V c).after 9 t) = _
  rw [after0_9]
  unfold out0_9
  rw [View.canon_unit_zero zeros0]
  simp only [View.ld_unit_zero (S := S2000x256) zeros0, View.ld_unit_zero (S := S256x256) zeros0, View.ld_unit_zero (S := S1x256) zeros0]
  obtain ⟨a00, a01, a10, a11, a20, a21, a30, a31, a40, a41, a50, a51, a60, a61, a70, a71, a80, a81, a90, a91⟩ := blocks0 t
  funext j
  obtain ⟨p, q, rfl⟩ : ∃ (p : Fin 2000) (q : Fin 256), j = ix2 p q := ⟨j 0, j 1, eq_ix2 j⟩
  refine (tile0_entry _ _ _ _ _ _ _ _ _ p q).trans ?_
  show _ = layerAt0 V c (((cfg0.win 9).blk t).view.emb (ix2 p q))
  unfold layerAt0
  have hp : p.val < 2000 := p.isLt
  have hq : q.val < 256 := q.isLt
  have row0 : ∀ k : Fin 256, ((cfg0.win 0).blk t).view.emb (ix2 p k) = ix2 (⟨t.val * 2000 + p.val, by have := t.isLt; have hN : cfg0.N = 25 := N_0; omega⟩ : Fin 50000) k := fun k => by
    funext a; apply Fin.ext
    match a with
    | ⟨0, _⟩ => show win0_0.index t (0 : Fin 2) * 2000 + 1 * p.val = t.val * 2000 + p.val; omega
    | ⟨1, _⟩ => show win0_0.index t (1 : Fin 2) * 256 + 1 * k.val = k.val; omega
  have row1 : ∀ k : Fin 256, ((cfg0.win 1).blk t).view.emb (ix2 p k) = ix2 (⟨t.val * 2000 + p.val, by have := t.isLt; have hN : cfg0.N = 25 := N_0; omega⟩ : Fin 50000) k := fun k => by
    funext a; apply Fin.ext
    match a with
    | ⟨0, _⟩ => show win0_1.index t (0 : Fin 2) * 2000 + 1 * p.val = t.val * 2000 + p.val; omega
    | ⟨1, _⟩ => show win0_1.index t (1 : Fin 2) * 256 + 1 * k.val = k.val; omega
  have mat2 : ∀ (k q : Fin 256), ((cfg0.win 2).blk t).view.emb (ix2 k q) = ix2 k q := fun k q => by
    funext a; apply Fin.ext
    match a with
    | ⟨0, _⟩ => show win0_2.index t (0 : Fin 2) * 256 + 1 * k.val = k.val; omega
    | ⟨1, _⟩ => show win0_2.index t (1 : Fin 2) * 256 + 1 * q.val = q.val; omega
  have mat3 : ∀ (k q : Fin 256), ((cfg0.win 3).blk t).view.emb (ix2 k q) = ix2 k q := fun k q => by
    funext a; apply Fin.ext
    match a with
    | ⟨0, _⟩ => show win0_3.index t (0 : Fin 2) * 256 + 1 * k.val = k.val; omega
    | ⟨1, _⟩ => show win0_3.index t (1 : Fin 2) * 256 + 1 * q.val = q.val; omega
  have vec4 : ∀ q : Fin 256, ((cfg0.win 4).blk t).view.emb (ix2 (0 : Fin 1) q) = ix2 (0 : Fin 1) q := fun q => by
    funext a; apply Fin.ext
    match a with
    | ⟨0, _⟩ => show win0_4.index t (0 : Fin 2) * 1 + 1 * 0 = 0; omega
    | ⟨1, _⟩ => show win0_4.index t (1 : Fin 2) * 256 + 1 * q.val = q.val; omega
  have vec5 : ∀ q : Fin 256, ((cfg0.win 5).blk t).view.emb (ix2 (0 : Fin 1) q) = ix2 (0 : Fin 1) q := fun q => by
    funext a; apply Fin.ext
    match a with
    | ⟨0, _⟩ => show win0_5.index t (0 : Fin 2) * 1 + 1 * 0 = 0; omega
    | ⟨1, _⟩ => show win0_5.index t (1 : Fin 2) * 256 + 1 * q.val = q.val; omega
  have vec6 : ∀ q : Fin 256, ((cfg0.win 6).blk t).view.emb (ix2 (0 : Fin 1) q) = ix2 (0 : Fin 1) q := fun q => by
    funext a; apply Fin.ext
    match a with
    | ⟨0, _⟩ => show win0_6.index t (0 : Fin 2) * 1 + 1 * 0 = 0; omega
    | ⟨1, _⟩ => show win0_6.index t (1 : Fin 2) * 256 + 1 * q.val = q.val; omega
  have vec7 : ∀ q : Fin 256, ((cfg0.win 7).blk t).view.emb (ix2 (0 : Fin 1) q) = ix2 (0 : Fin 1) q := fun q => by
    funext a; apply Fin.ext
    match a with
    | ⟨0, _⟩ => show win0_7.index t (0 : Fin 2) * 1 + 1 * 0 = 0; omega
    | ⟨1, _⟩ => show win0_7.index t (1 : Fin 2) * 256 + 1 * q.val = q.val; omega
  have vec8 : ∀ q : Fin 256, ((cfg0.win 8).blk t).view.emb (ix2 (0 : Fin 1) q) = ix2 (0 : Fin 1) q := fun q => by
    funext a; apply Fin.ext
    match a with
    | ⟨0, _⟩ => show win0_8.index t (0 : Fin 2) * 1 + 1 * 0 = 0; omega
    | ⟨1, _⟩ => show win0_8.index t (1 : Fin 2) * 256 + 1 * q.val = q.val; omega
  have hout : (⟨((((cfg0.win 9).blk t).view.emb (ix2 p q)) 0).val, ((((cfg0.win 9).blk t).view.emb (ix2 p q)) 0).isLt⟩ : Fin 50000)
      = ⟨t.val * 2000 + p.val, by have := t.isLt; have hN : cfg0.N = 25 := N_0; omega⟩ := Fin.ext (by
    show win0_9.index t (0 : Fin 2) * 2000 + 1 * p.val = t.val * 2000 + p.val; omega)
  have hcol : (⟨((((cfg0.win 9).blk t).view.emb (ix2 p q)) 1).val, ((((cfg0.win 9).blk t).view.emb (ix2 p q)) 1).isLt⟩ : Fin 256) = q := Fin.ext (by
    show win0_9.index t (1 : Fin 2) * 256 + 1 * q.val = q.val; omega)
  rw [hout, hcol]
  exact bn_congr _ _ _ _ _ _ _ _ _ _ _ _ _ _ _ _ _ _ p _ q
    (fun k => congrArg (V c main_v24 : S50000x256.Idx → EReal) (row0 k))
    (fun k => congrArg (V c main_arg0 : S50000x256.Idx → EReal) (row1 k))
    (fun k => congrArg (V c main_arg2 : S256x256.Idx → EReal) (mat2 k q))
    (fun k => congrArg (V c main_arg3 : S256x256.Idx → EReal) (mat3 k q))
    (congrArg (V c main_v25 : S1x256.Idx → EReal) (vec4 q))
    (congrArg (V c main_v26 : S1x256.Idx → EReal) (vec5 q))
    (congrArg (V c main_v27 : S1x256.Idx → EReal) (vec6 q))
    (congrArg (V c main_v28 : S1x256.Idx → EReal) (vec7 q))
    (congrArg (V c main_v29 : S1x256.Idx → EReal) (vec8 q))

/-- An index of the array is in point `t`'s block iff each coordinate is in the block's range on its axis. -/
theorem mem_block0 (t : Fin cfg0.N) (i : S50000x256.Idx) :
    i ∈ ((cfg0.win 9).blk t).view.set ↔ ∀ a : Fin 2, win0_9.index t a * S2000x256.size a ≤ (i a).val ∧ (i a).val < win0_9.index t a * S2000x256.size a + S2000x256.size a := by
  show i ∈ ((View.whole main_v30).slice (win0_9.rect t)).set ↔ _
  rw [View.set_slice_whole, Rect.mem_set_unit]
  exact Iff.rfl

/-- Every row is in some tile: row `r` in tile `r / 2000`. -/
theorem covered0 (i : S50000x256.Idx) : ∃ t : Fin cfg0.N, (cfg0.win 9).flush t = true ∧ i ∈ ((cfg0.win 9).blk t).view.set := by
  have hi0 : (i 0).val < 50000 := (i 0).isLt
  have hi1 : (i 1).val < 256 := (i 1).isLt
  have hN : cfg0.N = 25 := N_0
  let t : Fin cfg0.N := ⟨(i 0).val / 2000, by omega⟩
  obtain ⟨a00, a01, a10, a11, a20, a21, a30, a31, a40, a41, a50, a51, a60, a61, a70, a71, a80, a81, a90, a91⟩ := blocks0 t
  have ht : t.val = (i 0).val / 2000 := rfl
  refine ⟨t, flush0_9 t, ?_⟩
  rw [mem_block0]
  intro a
  match a with
  | ⟨0, _⟩ => show win0_9.index t (0 : Fin 2) * 2000 ≤ (i 0).val ∧ (i 0).val < win0_9.index t (0 : Fin 2) * 2000 + 2000; omega
  | ⟨1, _⟩ => show win0_9.index t (1 : Fin 2) * 256 ≤ (i 1).val ∧ (i 1).val < win0_9.index t (1 : Fin 2) * 256 + 256; omega

/-- THE OUTPUT ARRAY when the region is left: the layer's function of the contents it was entered with. -/
theorem region0_value (c : Dev nD) : (dat0 V c).arrAt 9 cfg0.N = layerAt0 V c :=
  (dat0 V c).arrAt_eq_of_cover 9 (layerAt0 V c) (fun t _ => flushed0 V c t) (covered0)

end Cert.Sage

end
-- ==== Proof.RefLayers.lean ====
/-
  The reference program's stages are the layer specification.

  Each statement reads one generated stage of the reference at a row/column index and finds there the specification's
  entry: the neighbour mean is the scattered sum divided by `max (deg r) 1`; a layer is two matrix products, the
  bias, the inference-mode batch normalisation, the rectifier and the residual, in the order the specification
  writes them.  The gather and the two scatters stay closed: the statements name their stages and never look inside.
-/
import proofs.«161210_j10050223473232_1_alg».proof.Proof.Gen.ReferenceIdeal.Read
import proofs.«161210_j10050223473232_1_alg».proof.Proof.SageSpec

noncomputable section

open scoped BigOperators

namespace Cert.Sage

open Cert.ReferenceIdeal Idealize.ShloMosaic Idealize.ShloMosaic.ValueIdx

/-- A node matrix of the reference, as the generated stages type it. -/
abbrev NodeArr := (⟨S50000x256, .f32⟩ : BufTy).Contents (Elt Ideal)
/-- The edge list of the reference. -/
abbrev EdgeArr := (⟨S2x800000, .i32⟩ : BufTy).Contents (Elt Ideal)
/-- A weight matrix of the reference. -/
abbrev WArr := (⟨S256x256, .f32⟩ : BufTy).Contents (Elt Ideal)
/-- A feature vector of the reference (a bias or a batch-normalisation parameter). -/
abbrev VArr := (⟨S256, .f32⟩ : BufTy).Contents (Elt Ideal)

/-! ## The index maps of the layout stages, at a row/column index -/

/-- The degree's two broadcasts, [50000] → [50000,1] → [50000,256], read row `r` whatever the column. -/
theorem deg_idx_21 (r : Fin 50000) (k : Fin 256) :
    Read.idx_main_v20 (Read.idx_main_v21 (ix2 r k)) = ix1 r :=
  funext fun a => match a with | ⟨0, _⟩ => rfl
/-- The degree's two broadcasts, [50000] → [50000,1] → [50000,256], read row `r` whatever the column. -/
theorem deg_idx_63 (r : Fin 50000) (k : Fin 256) :
    Read.idx_main_v62 (Read.idx_main_v63 (ix2 r k)) = ix1 r :=
  funext fun a => match a with | ⟨0, _⟩ => rfl
/-- The degree's two broadcasts, [50000] → [50000,1] → [50000,256], read row `r` whatever the column. -/
theorem deg_idx_105 (r : Fin 50000) (k : Fin 256) :
    Read.idx_main_v104 (Read.idx_main_v105 (ix2 r k)) = ix1 r :=
  funext fun a => match a with | ⟨0, _⟩ => rfl
/-- A feature vector's two broadcasts, [256] → [1,256] → [50000,256], read column `c` whatever the row. -/
theorem vec_idx_27 (r : Fin 50000) (c : Fin 256) :
    Read.idx_main_v26 (Read.idx_main_v27 (ix2 r c)) = ix1 c :=
  funext fun a => match a with | ⟨0, _⟩ => rfl
/-- A feature vector's two broadcasts, [256] → [1,256] → [50000,256], read column `c` whatever the row. -/
theorem vec_idx_30 (r : Fin 50000) (c : Fin 256) :
    Read.idx_main_v29 (Read.idx_main_v30 (ix2 r c)) = ix1 c :=
  funext fun a => match a with | ⟨0, _⟩ => rfl
/-- A feature vector's two broadcasts, [256] → [1,256] → [50000,256], read column `c` whatever the row. -/
theorem vec_idx_36 (r : Fin 50000) (c : Fin 256) :
    Read.idx_main_v35 (Read.idx_main_v36 (ix2 r c)) = ix1 c :=
  funext fun a => match a with | ⟨0, _⟩ => rfl
/-- A feature vector's two broadcasts, [256] → [1,256] → [50000,256], read column `c` whatever the row. -/
theorem vec_idx_39 (r : Fin 50000) (c : Fin 256) :
    Read.idx_main_v38 (Read.idx_main_v39 (ix2 r c)) = ix1 c :=
  funext fun a => match a with | ⟨0, _⟩ => rfl
/-- A feature vector's two broadcasts, [256] → [1,256] → [50000,256], read column `c` whatever the row. -/
theorem vec_idx_42 (r : Fin 50000) (c : Fin 256) :
    Read.idx_main_v41 (Read.idx_main_v42 (ix2 r c)) = ix1 c :=
  funext fun a => match a with | ⟨0, _⟩ => rfl
/-- A feature vector's two broadcasts, [256] → [1,256] → [50000,256], read column `c` whatever the row. -/
theorem vec_idx_69 (r : Fin 50000) (c : Fin 256) :
    Read.idx_main_v68 (Read.idx_main_v69 (ix2 r c)) = ix1 c :=
  funext fun a => match a with | ⟨0, _⟩ => rfl
/-- A feature vector's two broadcasts, [256] → [1,256] → [50000,256], read column `c` whatever the row. -/
theorem vec_idx_72 (r : Fin 50000) (c : Fin 256) :
    Read.idx_main_v71 (Read.idx_main_v72 (ix2 r c)) = ix1 c :=
  funext fun a => match a with | ⟨0, _⟩ => rfl
/-- A feature vector's two broadcasts, [256] → [1,256] → [50000,256], read column `c` whatever the row. -/
theorem vec_idx_78 (r : Fin 50000) (c : Fin 256) :
    Read.idx_main_v77 (Read.idx_main_v78 (ix2 r c)) = ix1 c :=
  funext fun a => match a with | ⟨0, _⟩ => rfl
/-- A feature vector's two broadcasts, [256] → [1,256] → [50000,256], read column `c` whatever the row. -/
theorem vec_idx_81 (r : Fin 50000) (c : Fin 256) :
    Read.idx_main_v80 (Read.idx_main_v81 (ix2 r c)) = ix1 c :=
  funext fun a => match a with | ⟨0, _⟩ => rfl
/-- A feature vector's two broadcasts, [256] → [1,256] → [50000,256], read column `c` whatever the row. -/
theorem vec_idx_84 (r : Fin 50000) (c : Fin 256) :
    Read.idx_main_v83 (Read.idx_main_v84 (ix2 r c)) = ix1 c :=
  funext fun a => match a with | ⟨0, _⟩ => rfl
/-- A feature vector's two broadcasts, [256] → [1,256] → [50000,256], read column `c` whatever the row. -/
theorem vec_idx_111 (r : Fin 50000) (c : Fin 256) :
    Read.idx_main_v110 (Read.idx_main_v111 (ix2 r c)) = ix1 c :=
  funext fun a => match a with | ⟨0, _⟩ => rfl
/-- The matrix product's left operand is read at row `r`, contracted coordinate `k`. -/
theorem lidx_23 (r : Fin 50000) (c k : Fin 256) : Read.lidx_main_v23 (ix2 r c) k = ix2 r k :=
  funext fun a => match a with | ⟨0, _⟩ => rfl | ⟨1, _⟩ => rfl
/-- The matrix product's right operand is read at contracted coordinate `k`, column `c`. -/
theorem ridx_23 (r : Fin 50000) (c k : Fin 256) : Read.ridx_main_v23 (ix2 r c) k = ix2 k c :=
  funext fun a => match a with | ⟨0, _⟩ => rfl | ⟨1, _⟩ => rfl
/-- The matrix product's left operand is read at row `r`, contracted coordinate `k`. -/
theorem lidx_24 (r : Fin 50000) (c k : Fin 256) : Read.lidx_main_v24 (ix2 r c) k = ix2 r k :=
  funext fun a => match a with | ⟨0, _⟩ => rfl | ⟨1, _⟩ => rfl
/-- The matrix product's right operand is read at contracted coordinate `k`, column `c`. -/
theorem ridx_24 (r : Fin 50000) (c k : Fin 256) : Read.ridx_main_v24 (ix2 r c) k = ix2 k c :=
  funext fun a => match a with | ⟨0, _⟩ => rfl | ⟨1, _⟩ => rfl
/-- The matrix product's left operand is read at row `r`, contracted coordinate `k`. -/
theorem lidx_65 (r : Fin 50000) (c k : Fin 256) : Read.lidx_main_v65 (ix2 r c) k = ix2 r k :=
  funext fun a => match a with | ⟨0, _⟩ => rfl | ⟨1, _⟩ => rfl
/-- The matrix product's right operand is read at contracted coordinate `k`, column `c`. -/
theorem ridx_65 (r : Fin 50000) (c k : Fin 256) : Read.ridx_main_v65 (ix2 r c) k = ix2 k c :=
  funext fun a => match a with | ⟨0, _⟩ => rfl | ⟨1, _⟩ => rfl
/-- The matrix product's left operand is read at row `r`, contracted coordinate `k`. -/
theorem lidx_66 (r : Fin 50000) (c k : Fin 256) : Read.lidx_main_v66 (ix2 r c) k = ix2 r k :=
  funext fun a => match a with | ⟨0, _⟩ => rfl | ⟨1, _⟩ => rfl
/-- The matrix product's right operand is read at contracted coordinate `k`, column `c`. -/
theorem ridx_66 (r : Fin 50000) (c k : Fin 256) : Read.ridx_main_v66 (ix2 r c) k = ix2 k c :=
  funext fun a => match a with | ⟨0, _⟩ => rfl | ⟨1, _⟩ => rfl
/-- The matrix product's left operand is read at row `r`, contracted coordinate `k`. -/
theorem lidx_107 (r : Fin 50000) (c k : Fin 256) : Read.lidx_main_v107 (ix2 r c) k = ix2 r k :=
  funext fun a => match a with | ⟨0, _⟩ => rfl | ⟨1, _⟩ => rfl
/-- The matrix product's right operand is read at contracted coordinate `k`, column `c`. -/
theorem ridx_107 (r : Fin 50000) (c k : Fin 256) : Read.ridx_main_v107 (ix2 r c) k = ix2 k c :=
  funext fun a => match a with | ⟨0, _⟩ => rfl | ⟨1, _⟩ => rfl
/-- The matrix product's left operand is read at row `r`, contracted coordinate `k`. -/
theorem lidx_108 (r : Fin 50000) (c k : Fin 256) : Read.lidx_main_v108 (ix2 r c) k = ix2 r k :=
  funext fun a => match a with | ⟨0, _⟩ => rfl | ⟨1, _⟩ => rfl
/-- The matrix product's right operand is read at contracted coordinate `k`, column `c`. -/
theorem ridx_108 (r : Fin 50000) (c k : Fin 256) : Read.ridx_main_v108 (ix2 r c) k = ix2 k c :=
  funext fun a => match a with | ⟨0, _⟩ => rfl | ⟨1, _⟩ => rfl

/-! ## The neighbour means -/

/-- Layer 0's neighbour mean: the scattered sum over `max (deg r) 1`. -/
theorem ref_mean0 (x0 : NodeArr) (x1 : EdgeArr) (r : Fin 50000) (k : Fin 256) :
    Read.val_main_v22 (F := Ideal) x0 x1 (ix2 r k)
      = meanDiv (fun r k => Read.val_main_v13 (F := Ideal) x0 x1 (ix2 r k))
          (fun r => Read.val_main_v17 (F := Ideal) x1 (ix1 r)) r k := by
  rw [Read.val_main_v22_apply, Read.val_main_v21_apply, Read.val_main_v20_apply, Read.val_main_v19_apply, Read.val_main_v18_apply, Read.val_main_cst_3_apply, deg_idx_21]
  simp only [Ideal.hostDivf_def, Ideal.maximumf_def, Ideal.ofBits_def]
  rfl

/-- Layer 1's neighbour mean: the scattered sum over `max (deg r) 1`. -/
theorem ref_mean1 (x0 : NodeArr) (x1 : EdgeArr) (x2 x3 : WArr) (x4 x11 x12 x13 x14 : VArr) (r : Fin 50000) (k : Fin 256) :
    Read.val_main_v64 (F := Ideal) x0 x1 x2 x3 x4 x11 x12 x13 x14 (ix2 r k)
      = meanDiv (fun r k => Read.val_main_v55 (F := Ideal) x0 x1 x2 x3 x4 x11 x12 x13 x14 (ix2 r k))
          (fun r => Read.val_main_v59 (F := Ideal) x1 (ix1 r)) r k := by
  rw [Read.val_main_v64_apply, Read.val_main_v63_apply, Read.val_main_v62_apply, Read.val_main_v61_apply, Read.val_main_v60_apply, Read.val_main_cst_10_apply, deg_idx_63]
  simp only [Ideal.hostDivf_def, Ideal.maximumf_def, Ideal.ofBits_def]
  rfl

/-- Layer 2's neighbour mean: the scattered sum over `max (deg r) 1`. -/
theorem ref_mean2 (x0 : NodeArr) (x1 : EdgeArr) (x2 x3 : WArr) (x4 : VArr) (x5 x6 : WArr) (x7 x11 x12 x13 x14 x15 x16 x17 x18 : VArr) (r : Fin 50000) (k : Fin 256) :
    Read.val_main_v106 (F := Ideal) x0 x1 x2 x3 x4 x5 x6 x7 x11 x12 x13 x14 x15 x16 x17 x18 (ix2 r k)
      = meanDiv (fun r k => Read.val_main_v97 (F := Ideal) x0 x1 x2 x3 x4 x5 x6 x7 x11 x12 x13 x14 x15 x16 x17 x18 (ix2 r k))
          (fun r => Read.val_main_v101 (F := Ideal) x1 (ix1 r)) r k := by
  rw [Read.val_main_v106_apply, Read.val_main_v105_apply, Read.val_main_v104_apply, Read.val_main_v103_apply, Read.val_main_v102_apply, Read.val_main_cst_17_apply, deg_idx_105]
  simp only [Ideal.hostDivf_def, Ideal.maximumf_def, Ideal.ofBits_def]
  rfl

/-! ## The layers -/

/-- Layer 0: two matrix products and the bias, normalised, rectified, plus the residual `x0 r c`. -/
theorem ref_layer0 (x0 : NodeArr) (x1 : EdgeArr) (x2 x3 : WArr) (x4 x11 x12 x13 x14 : VArr) (r : Fin 50000) (c : Fin 256) :
    Read.val_main_v45 (F := Ideal) x0 x1 x2 x3 x4 x11 x12 x13 x14 (ix2 r c)
      = bn (fun r k => Read.val_main_v22 (F := Ideal) x0 x1 (ix2 r k)) (fun r k => x0 (ix2 r k))
          (fun k c => x2 (ix2 k c)) (fun k c => x3 (ix2 k c)) (fun c => x4 (ix1 c))
          (fun c => x11 (ix1 c)) (fun c => x12 (ix1 c)) (fun c => x13 (ix1 c)) (fun c => x14 (ix1 c)) r c := by
  rw [Read.val_main_v45_apply, Read.val_main_v44_apply, Read.val_main_call0_v0_apply, Read.val_main_call0_cst_apply,
    Read.val_main_v43_apply, Read.val_main_v42_apply, Read.val_main_v41_apply, Read.val_main_v40_apply,
    Read.val_main_v39_apply, Read.val_main_v38_apply, Read.val_main_v37_apply, Read.val_main_v36_apply,
    Read.val_main_v35_apply, Read.val_main_v34_apply, Read.val_main_v33_apply, Read.val_main_v32_apply,
    Read.val_main_cst_4_apply, Read.val_main_v31_apply, Read.val_main_v30_apply, Read.val_main_v29_apply,
    Read.val_main_v28_apply, Read.val_main_v27_apply, Read.val_main_v26_apply, Read.val_main_v25_apply,
    Read.val_main_v24_apply, Read.val_main_v23_apply]
  simp only [vec_idx_27, vec_idx_30, vec_idx_36, vec_idx_39, vec_idx_42, lidx_23, ridx_23, lidx_24, ridx_24, Ideal.addf_def,
    Ideal.subf_def, Ideal.mulf_def, Ideal.maximumf_def, Ideal.hostUnary_rsqrt_def, Ideal.ofBits_def]
  unfold bn lin
  rfl

/-- Layer 1: the same on layer 0's result, with the second set of weights and running statistics. -/
theorem ref_layer1 (x0 : NodeArr) (x1 : EdgeArr) (x2 x3 : WArr) (x4 : VArr) (x5 x6 : WArr) (x7 x11 x12 x13 x14 x15 x16 x17 x18 : VArr) (r : Fin 50000) (c : Fin 256) :
    Read.val_main_v87 (F := Ideal) x0 x1 x2 x3 x4 x5 x6 x7 x11 x12 x13 x14 x15 x16 x17 x18 (ix2 r c)
      = bn (fun r k => Read.val_main_v64 (F := Ideal) x0 x1 x2 x3 x4 x11 x12 x13 x14 (ix2 r k))
          (fun r k => Read.val_main_v45 (F := Ideal) x0 x1 x2 x3 x4 x11 x12 x13 x14 (ix2 r k))
          (fun k c => x5 (ix2 k c)) (fun k c => x6 (ix2 k c)) (fun c => x7 (ix1 c))
          (fun c => x15 (ix1 c)) (fun c => x16 (ix1 c)) (fun c => x17 (ix1 c)) (fun c => x18 (ix1 c)) r c := by
  rw [Read.val_main_v87_apply, Read.val_main_v86_apply, Read.val_main_call1_v0_apply, Read.val_main_call1_cst_apply,
    Read.val_main_v85_apply, Read.val_main_v84_apply, Read.val_main_v83_apply, Read.val_main_v82_apply,
    Read.val_main_v81_apply, Read.val_main_v80_apply, Read.val_main_v79_apply, Read.val_main_v78_apply,
    Read.val_main_v77_apply, Read.val_main_v76_apply, Read.val_main_v75_apply, Read.val_main_v74_apply,
    Read.val_main_cst_11_apply, Read.val_main_v73_apply, Read.val_main_v72_apply, Read.val_main_v71_apply,
    Read.val_main_v70_apply, Read.val_main_v69_apply, Read.val_main_v68_apply, Read.val_main_v67_apply,
    Read.val_main_v66_apply, Read.val_main_v65_apply]
  simp only [vec_idx_69, vec_idx_72, vec_idx_78, vec_idx_81, vec_idx_84, lidx_65, ridx_65, lidx_66, ridx_66, Ideal.addf_def,
    Ideal.subf_def, Ideal.mulf_def, Ideal.maximumf_def, Ideal.hostUnary_rsqrt_def, Ideal.ofBits_def]
  unfold bn lin
  rfl

/-- Layer 2: the linear part alone, on layer 1's result. -/
theorem ref_layer2 (x0 : NodeArr) (x1 : EdgeArr) (x2 x3 : WArr) (x4 : VArr) (x5 x6 : WArr) (x7 : VArr) (x8 x9 : WArr) (x10 x11 x12 x13 x14 x15 x16 x17 x18 : VArr) (r : Fin 50000) (c : Fin 256) :
    Read.val_main_v112 (F := Ideal) x0 x1 x2 x3 x4 x5 x6 x7 x8 x9 x10 x11 x12 x13 x14 x15 x16 x17 x18 (ix2 r c)
      = lin (fun r k => Read.val_main_v106 (F := Ideal) x0 x1 x2 x3 x4 x5 x6 x7 x11 x12 x13 x14 x15 x16 x17 x18 (ix2 r k))
          (fun r k => Read.val_main_v87 (F := Ideal) x0 x1 x2 x3 x4 x5 x6 x7 x11 x12 x13 x14 x15 x16 x17 x18 (ix2 r k))
          (fun k c => x8 (ix2 k c)) (fun k c => x9 (ix2 k c)) (fun c => x10 (ix1 c)) r c := by
  rw [Read.val_main_v112_apply, Read.val_main_v111_apply, Read.val_main_v110_apply, Read.val_main_v109_apply,
    Read.val_main_v108_apply, Read.val_main_v107_apply]
  simp only [vec_idx_111, lidx_107, ridx_107, lidx_108, ridx_108, Ideal.addf_def]
  unfold lin
  rfl

end Cert.Sage

end
-- ==== Proof.RefHost.lean ====
/-
  The reference's aggregation stages are the host-side aggregation terms.

  Both programs compute the neighbour sum and the degree with the same library functions of the same arguments: a
  gather of the rows `src e`, an accumulating scatter into the rows `dst e` of a zero matrix, and an accumulating
  scatter of `1.0` into the entries `dst e` of a zero vector.  Each program spells its own copy of the dimension
  records and of the shape facts; the copies have the same data and differ only in proofs, so the reference's
  stages ARE the named terms, with the gather and the scatters never opened.
-/
import proofs.«161210_j10050223473232_1_alg».proof.Proof.Gen.ReferenceIdeal.Read
import proofs.«161210_j10050223473232_1_alg».proof.Proof.HostTerms

noncomputable section

namespace Cert.Sage

open Idealize.ShloMosaic Cert.ReferenceIdeal

variable [hK : Cert.KernelIdeal.Facts]

/-! ## The dimension records of the two programs -/

/-- The two programs' gather records: the same dimension numbers. -/
theorem gatherRows_eq  :
    Cert.ReferenceIdeal.gather_S50000x256_S800000x1_S800000x256_1_0_n_n_0_1_1256
      = Cert.KernelIdeal.gather_S50000x256_S800000x1_S800000x256_1_0_n_n_0_1_1256 := rfl
/-- The two programs' row-scatter records: the same dimension numbers. -/
theorem scatterRows_eq  :
    Cert.ReferenceIdeal.scatter_S50000x256_S800000x1_S800000x256_1_0_0_1
      = Cert.KernelIdeal.scatter_S50000x256_S800000x1_S800000x256_1_0_0_1 := rfl
/-- The two programs' entry-scatter records: the same dimension numbers. -/
theorem scatterEntries_eq  :
    Cert.ReferenceIdeal.scatter_S50000_S800000x1_S800000_n_0_0_1
      = Cert.KernelIdeal.scatter_S50000_S800000x1_S800000_n_0_0_1 := rfl

/-! ## The index columns -/

/-- The reference's column of wrapped source nodes. -/
theorem ref_srcCol_9 (x1 : (⟨Cert.ReferenceIdeal.S2x800000, .i32⟩ : BufTy).Contents (Elt Ideal)) :
    Read.val_main_v9 (F := Ideal) x1
      = srcCol (F := Ideal) x1 := rfl
/-- The reference's column of wrapped source nodes. -/
theorem ref_srcCol_51 (x1 : (⟨Cert.ReferenceIdeal.S2x800000, .i32⟩ : BufTy).Contents (Elt Ideal)) :
    Read.val_main_v51 (F := Ideal) x1
      = srcCol (F := Ideal) x1 := rfl
/-- The reference's column of wrapped source nodes. -/
theorem ref_srcCol_93 (x1 : (⟨Cert.ReferenceIdeal.S2x800000, .i32⟩ : BufTy).Contents (Elt Ideal)) :
    Read.val_main_v93 (F := Ideal) x1
      = srcCol (F := Ideal) x1 := rfl
/-- The reference's column of target nodes. -/
theorem ref_dstCol_12 (x1 : (⟨Cert.ReferenceIdeal.S2x800000, .i32⟩ : BufTy).Contents (Elt Ideal)) :
    Read.val_main_v12 (F := Ideal) x1
      = dstCol (F := Ideal) x1 := rfl
/-- The reference's column of target nodes. -/
theorem ref_dstCol_16 (x1 : (⟨Cert.ReferenceIdeal.S2x800000, .i32⟩ : BufTy).Contents (Elt Ideal)) :
    Read.val_main_v16 (F := Ideal) x1
      = dstCol (F := Ideal) x1 := rfl
/-- The reference's column of target nodes. -/
theorem ref_dstCol_54 (x1 : (⟨Cert.ReferenceIdeal.S2x800000, .i32⟩ : BufTy).Contents (Elt Ideal)) :
    Read.val_main_v54 (F := Ideal) x1
      = dstCol (F := Ideal) x1 := rfl
/-- The reference's column of target nodes. -/
theorem ref_dstCol_58 (x1 : (⟨Cert.ReferenceIdeal.S2x800000, .i32⟩ : BufTy).Contents (Elt Ideal)) :
    Read.val_main_v58 (F := Ideal) x1
      = dstCol (F := Ideal) x1 := rfl
/-- The reference's column of target nodes. -/
theorem ref_dstCol_96 (x1 : (⟨Cert.ReferenceIdeal.S2x800000, .i32⟩ : BufTy).Contents (Elt Ideal)) :
    Read.val_main_v96 (F := Ideal) x1
      = dstCol (F := Ideal) x1 := rfl
/-- The reference's column of target nodes. -/
theorem ref_dstCol_100 (x1 : (⟨Cert.ReferenceIdeal.S2x800000, .i32⟩ : BufTy).Contents (Elt Ideal)) :
    Read.val_main_v100 (F := Ideal) x1
      = dstCol (F := Ideal) x1 := rfl

/-! ## The neighbour sums and the degrees -/

/-- Layer 0's neighbour sum, of the input node matrix. -/
theorem ref_sum0 (x0 : (⟨Cert.ReferenceIdeal.S50000x256, .f32⟩ : BufTy).Contents (Elt Ideal)) (x1 : (⟨Cert.ReferenceIdeal.S2x800000, .i32⟩ : BufTy).Contents (Elt Ideal)) :
    Read.val_main_v13 (F := Ideal) x0 x1
      = nbrSum (F := Ideal) x1 x0 := rfl
/-- Layer 0's degree. -/
theorem ref_deg0 (x1 : (⟨Cert.ReferenceIdeal.S2x800000, .i32⟩ : BufTy).Contents (Elt Ideal)) :
    Read.val_main_v17 (F := Ideal) x1
      = degree (F := Ideal) x1 := rfl
/-- Layer 1's neighbour sum, of layer 0's result. -/
theorem ref_sum1 (x0 : (⟨Cert.ReferenceIdeal.S50000x256, .f32⟩ : BufTy).Contents (Elt Ideal)) (x1 : (⟨Cert.ReferenceIdeal.S2x800000, .i32⟩ : BufTy).Contents (Elt Ideal))
    (x2 x3 : (⟨Cert.ReferenceIdeal.S256x256, .f32⟩ : BufTy).Contents (Elt Ideal))
    (x4 x11 x12 x13 x14 : (⟨Cert.ReferenceIdeal.S256, .f32⟩ : BufTy).Contents (Elt Ideal)) :
    Read.val_main_v55 (F := Ideal) x0 x1 x2 x3 x4 x11 x12 x13 x14
      = nbrSum (F := Ideal) x1 (Read.val_main_v45 (F := Ideal) x0 x1 x2 x3 x4 x11 x12 x13 x14) := rfl
/-- Layer 1's degree. -/
theorem ref_deg1 (x1 : (⟨Cert.ReferenceIdeal.S2x800000, .i32⟩ : BufTy).Contents (Elt Ideal)) :
    Read.val_main_v59 (F := Ideal) x1
      = degree (F := Ideal) x1 := rfl
/-- Layer 2's neighbour sum, of layer 1's result. -/
theorem ref_sum2 (x0 : (⟨Cert.ReferenceIdeal.S50000x256, .f32⟩ : BufTy).Contents (Elt Ideal)) (x1 : (⟨Cert.ReferenceIdeal.S2x800000, .i32⟩ : BufTy).Contents (Elt Ideal))
    (x2 x3 : (⟨Cert.ReferenceIdeal.S256x256, .f32⟩ : BufTy).Contents (Elt Ideal)) (x4 : (⟨Cert.ReferenceIdeal.S256, .f32⟩ : BufTy).Contents (Elt Ideal))
    (x5 x6 : (⟨Cert.ReferenceIdeal.S256x256, .f32⟩ : BufTy).Contents (Elt Ideal))
    (x7 x11 x12 x13 x14 x15 x16 x17 x18 : (⟨Cert.ReferenceIdeal.S256, .f32⟩ : BufTy).Contents (Elt Ideal)) :
    Read.val_main_v97 (F := Ideal) x0 x1 x2 x3 x4 x5 x6 x7 x11 x12 x13 x14 x15 x16 x17 x18
      = nbrSum (F := Ideal) x1 (Read.val_main_v87 (F := Ideal) x0 x1 x2 x3 x4 x5 x6 x7 x11 x12 x13 x14 x15 x16 x17 x18) := rfl
/-- Layer 2's degree. -/
theorem ref_deg2 (x1 : (⟨Cert.ReferenceIdeal.S2x800000, .i32⟩ : BufTy).Contents (Elt Ideal)) :
    Read.val_main_v101 (F := Ideal) x1
      = degree (F := Ideal) x1 := rfl

end Cert.Sage

end
-- ==== Proof.Layer0.lean ====
/-
  The first layer, end to end on the kernel's side: the array the first region leaves is the reference's first-layer
  stage of the launch arguments.

  Entry by entry both are the normalised layer's formula.  The kernel's aggregated matrix is the neighbour sum TIMES
  the reciprocal of `max (deg r) 1`, the reference's the sum DIVIDED by it: equal on the extended reals because the
  divisor is never zero (`meanMul_eq_meanDiv`).  The sums and the degrees are the same closed functions of the edge
  list and the input matrix on both sides; the parameter rows are the parameter vectors recast; the weights are the
  arguments themselves.
-/
import proofs.«161210_j10050223473232_1_alg».proof.Proof.Region0
import proofs.«161210_j10050223473232_1_alg».proof.Proof.SpecCongr
import proofs.«161210_j10050223473232_1_alg».proof.Proof.Entry0
import proofs.«161210_j10050223473232_1_alg».proof.Proof.RefLayers
import proofs.«161210_j10050223473232_1_alg».proof.Proof.RefHost

set_option maxRecDepth 16384

noncomputable section

namespace Cert.Sage

open Cert.KernelIdeal Cert.KernelIdeal.Gen Cert.KernelIdeal.Facts₀ Cert.KernelIdeal.Facts
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The mean the kernel's host side forms from a node matrix `h` is, entry by entry, the mean by division of the
    same sum and degree. -/
theorem aggMul_is_meanDiv (e : Edges Ideal) (h : Nodes Ideal) (r : Fin 50000) (k : Fin 256) :
    aggMul (F := Ideal) e h (ix2 r k)
      = meanDiv (fun r k => (nbrSum (F := Ideal) e h : S50000x256.Idx → EReal) (ix2 r k))
          (fun r => (degree (F := Ideal) e : S50000.Idx → EReal) (ix1 r)) r k := by
  rw [aggMul_entry, meanMul_eq_meanDiv]

/-- The aggregated matrix the first region reads is the reference's first mean. -/
theorem agg0_entry (c : Dev nD) (r : Fin 50000) (k : Fin 256) :
    (W1 m ρ c (Proc.devRef .tc main_v24) : S50000x256.Idx → EReal) (ix2 r k)
      = Cert.ReferenceIdeal.Read.val_main_v22 (F := Ideal) (m ((c : Thread nD τ).loc main_arg0)) (m ((c : Thread nD τ).loc main_arg1)) (ix2 r k) := by
  rw [first_agg, aggMul_is_meanDiv, ref_mean0, ref_sum0, ref_deg0]

/-- A parameter row the first region reads, at `(0, q)`, is the parameter vector's entry `q`. -/
theorem row25_entry (c : Dev nD) (q : Fin 256) :
    (W1 m ρ c (Proc.devRef .tc main_v25) : S1x256.Idx → EReal) (ix2 (0 : Fin 1) q) = (m ((c : Thread nD τ).loc main_arg4) : S256.Idx → EReal) (ix1 q) := by
  rw [first_row25, row_of_vec]
theorem row26_entry (c : Dev nD) (q : Fin 256) :
    (W1 m ρ c (Proc.devRef .tc main_v26) : S1x256.Idx → EReal) (ix2 (0 : Fin 1) q) = (m ((c : Thread nD τ).loc main_arg11) : S256.Idx → EReal) (ix1 q) := by
  rw [first_row26, row_of_vec]
theorem row27_entry (c : Dev nD) (q : Fin 256) :
    (W1 m ρ c (Proc.devRef .tc main_v27) : S1x256.Idx → EReal) (ix2 (0 : Fin 1) q) = (m ((c : Thread nD τ).loc main_arg12) : S256.Idx → EReal) (ix1 q) := by
  rw [first_row27, row_of_vec]
theorem row28_entry (c : Dev nD) (q : Fin 256) :
    (W1 m ρ c (Proc.devRef .tc main_v28) : S1x256.Idx → EReal) (ix2 (0 : Fin 1) q) = (m ((c : Thread nD τ).loc main_arg13) : S256.Idx → EReal) (ix1 q) := by
  rw [first_row28, row_of_vec]
theorem row29_entry (c : Dev nD) (q : Fin 256) :
    (W1 m ρ c (Proc.devRef .tc main_v29) : S1x256.Idx → EReal) (ix2 (0 : Fin 1) q) = (m ((c : Thread nD τ).loc main_arg14) : S256.Idx → EReal) (ix1 q) := by
  rw [first_row29, row_of_vec]

/-- THE FIRST LAYER: the array the first region leaves is the reference's first-layer stage of the launch arguments. -/
theorem layer0_eq (c : Dev nD) :
    W2 m ρ c (Proc.devRef .tc main_v30)
      = Cert.ReferenceIdeal.Read.val_main_v45 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14)) := by
  refine (W2_arr m ρ c 9).trans ?_
  rw [region0_value]
  funext i
  obtain ⟨r, q, rfl⟩ : ∃ (r : Fin 50000) (q : Fin 256), i = ix2 r q := ⟨i 0, i 1, eq_ix2 i⟩
  rw [ref_layer0]
  unfold layerAt0
  exact bn_congr _ _ _ _ _ _ _ _ _ _ _ _ _ _ _ _ _ _ _ r q
    (fun k => agg0_entry m ρ c r k)
    (fun k => congrFun (first_arg0 m ρ c) (ix2 r k))
    (fun k => congrFun (first_arg2 m ρ c) (ix2 k q))
    (fun k => congrFun (first_arg3 m ρ c) (ix2 k q))
    (row25_entry m ρ c q) (row26_entry m ρ c q) (row27_entry m ρ c q) (row28_entry m ρ c q) (row29_entry m ρ c q)

end Cert.Sage

end
-- ==== Proof.Layer1.lean ====
/-
  The second layer, end to end on the kernel's side: the array the second region leaves is the reference's
  second-layer stage of the launch arguments.

  The second region reads the neighbour mean of the FIRST LAYER'S RESULT and that result itself; the first layer's
  result is already known to be the reference's (`layer0_eq`), and the mean by the reciprocal is the mean by division.
-/
import proofs.«161210_j10050223473232_1_alg».proof.Proof.Region1
import proofs.«161210_j10050223473232_1_alg».proof.Proof.Entry1
import proofs.«161210_j10050223473232_1_alg».proof.Proof.Layer0

set_option maxRecDepth 16384

noncomputable section

namespace Cert.Sage

open Cert.KernelIdeal Cert.KernelIdeal.Gen Cert.KernelIdeal.Facts₀ Cert.KernelIdeal.Facts
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The aggregated matrix the second region reads is the reference's second mean. -/
theorem agg1_entry (c : Dev nD) (r : Fin 50000) (k : Fin 256) :
    (W3 m ρ c (Proc.devRef .tc main_v42) : S50000x256.Idx → EReal) (ix2 r k)
      = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) (m ((c : Thread nD τ).loc main_arg13)) (m ((c : Thread nD τ).loc main_arg14)) (ix2 r k) := by
  rw [second_agg, layer0_eq, aggMul_is_meanDiv, ref_mean1, ref_sum1, ref_deg1]

/-- A parameter row the second region reads, at `(0, q)`, is the parameter vector's entry `q`. -/
theorem row43_entry (c : Dev nD) (q : Fin 256) :
    (W3 m ρ c (Proc.devRef .tc main_v43) : S1x256.Idx → EReal) (ix2 (0 : Fin 1) q) = (m ((c : Thread nD τ).loc main_arg7) : S256.Idx → EReal) (ix1 q) := by
  rw [second_row43, row_of_vec]
theorem row44_entry (c : Dev nD) (q : Fin 256) :
    (W3 m ρ c (Proc.devRef .tc main_v44) : S1x256.Idx → EReal) (ix2 (0 : Fin 1) q) = (m ((c : Thread nD τ).loc main_arg15) : S256.Idx → EReal) (ix1 q) := by
  rw [second_row44, row_of_vec]
theorem row45_entry (c : Dev nD) (q : Fin 256) :
    (W3 m ρ c (Proc.devRef .tc main_v45) : S1x256.Idx → EReal) (ix2 (0 : Fin 1) q) = (m ((c : Thread nD τ).loc main_arg16) : S256.Idx → EReal) (ix1 q) := by
  rw [second_row45, row_of_vec]
theorem row46_entry (c : Dev nD) (q : Fin 256) :
    (W3 m ρ c (Proc.devRef .tc main_v46) : S1x256.Idx → EReal) (ix2 (0 : Fin 1) q) = (m ((c : Thread nD τ).loc main_arg17) : S256.Idx → EReal) (ix1 q) := by
  rw [second_row46, row_of_vec]
theorem row47_entry (c : Dev nD) (q : Fin 256) :
    (W3 m ρ c (Proc.devRef .tc main_v47) : S1x256.Idx → EReal) (ix2 (0 : Fin 1) q) = (m ((c : Thread nD τ).loc main_arg18) : S256.Idx → EReal) (ix1 q) := by
  rw [second_row47, row_of_vec]

/-- THE SECOND LAYER: the array the second region leaves is the reference's second-layer stage of the launch arguments. -/
theorem layer1_eq (c : Dev nD) :
    W4 m ρ c (Proc.devRef .tc main_v48)
      = Cert.ReferenceIdeal.Read.val_main_v87 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W4_arr m ρ c 9).trans ?_
  rw [region1_value]
  funext i
  obtain ⟨r, q, rfl⟩ : ∃ (r : Fin 50000) (q : Fin 256), i = ix2 r q := ⟨i 0, i 1, eq_ix2 i⟩
  rw [ref_layer1]
  unfold layerAt1
  exact bn_congr _ _ _ _ _ _ _ _ _ _ _ _ _ _ _ _ _ _ _ r q
    (fun k => agg1_entry m ρ c r k)
    (fun k => (congrFun (second_h m ρ c) (ix2 r k)).trans (congrFun (layer0_eq m ρ c) (ix2 r k)))
    (fun k => congrFun (second_arg5 m ρ c) (ix2 k q))
    (fun k => congrFun (second_arg6 m ρ c) (ix2 k q))
    (row43_entry m ρ c q) (row44_entry m ρ c q) (row45_entry m ρ c q) (row46_entry m ρ c q) (row47_entry m ρ c q)

end Cert.Sage

end
-- ==== Proof.Layer2.lean ====
/-
  The last layer, end to end on the kernel's side: the result array is the reference's result stage of the launch
  arguments.

  The third region reads the neighbour mean of the SECOND LAYER'S RESULT and that result itself, and computes the linear
  part alone (no normalisation, no rectifier, no residual).
-/
import proofs.«161210_j10050223473232_1_alg».proof.Proof.Region2
import proofs.«161210_j10050223473232_1_alg».proof.Proof.Entry2
import proofs.«161210_j10050223473232_1_alg».proof.Proof.Layer1

set_option maxRecDepth 16384

noncomputable section

namespace Cert.Sage

open Cert.KernelIdeal Cert.KernelIdeal.Gen Cert.KernelIdeal.Facts₀ Cert.KernelIdeal.Facts
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-- The aggregated matrix the third region reads is the reference's third mean. -/
theorem agg2_entry (c : Dev nD) (r : Fin 50000) (k : Fin 256) :
    (W5 m ρ c (Proc.devRef .tc main_v60) : S50000x256.Idx → EReal) (ix2 r k)
      = Cert.ReferenceIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (ix2 r k) := by
  rw [third_agg, layer1_eq, aggMul_is_meanDiv, ref_mean2, ref_sum2, ref_deg2]

/-- The bias row the third region reads, at `(0, q)`, is the bias vector's entry `q`. -/
theorem row61_entry (c : Dev nD) (q : Fin 256) :
    (W5 m ρ c (Proc.devRef .tc main_v61) : S1x256.Idx → EReal) (ix2 (0 : Fin 1) q) = (m ((c : Thread nD τ).loc main_arg10) : S256.Idx → EReal) (ix1 q) := by
  rw [third_row61, row_of_vec]

/-- THE RESULT: the array the third region leaves is the reference's result stage of the launch arguments. -/
theorem layer2_eq (c : Dev nD) :
    W6 m ρ c (Proc.devRef .tc main_v62)
      = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W6_arr m ρ c 5).trans ?_
  rw [region2_value]
  funext i
  obtain ⟨r, q, rfl⟩ : ∃ (r : Fin 50000) (q : Fin 256), i = ix2 r q := ⟨i 0, i 1, eq_ix2 i⟩
  rw [ref_layer2]
  unfold layerAt2
  exact lin_congr _ _ _ _ _ _ _ _ _ _ _ r q
    (fun k => agg2_entry m ρ c r k)
    (fun k => (congrFun (third_h m ρ c) (ix2 r k)).trans (congrFun (layer1_eq m ρ c) (ix2 r k)))
    (fun k => congrFun (third_arg8 m ρ c) (ix2 k q))
    (fun k => congrFun (third_arg9 m ρ c) (ix2 k q))
    (row61_entry m ρ c q)

end Cert.Sage

end
-- ==== Proof.lean ====
/-
  A three-layer graph network — in each layer the mean of the neighbours' rows, two 256 × 256 matrix products, a bias;
  in the first two layers also an inference-mode batch normalisation, a rectifier and the residual — computed by a
  kernel that runs the dense part of each layer in 25 tiles of 2000 rows, against the same network written with
  whole-array operations.  The claim: on the extended reals, from memories that agree on the nineteen arguments, both
  programs end with the same 50000 × 256 result, and each program terminates, faults nowhere and leaves its arguments
  as launched.

  Why the two results agree.  (1) An entry of a layer's output depends on ONE row of the aggregated matrix and of the
  node matrix, so the tiles are the blocks of one whole-array function and, the 25 tiles covering the 50000 rows, each
  region leaves that function of what it was entered with (Proof/Region0–2, over the tile read at an entry,
  Proof/TileEntry).  (2) A change of float format is the identity on the extended reals and a matrix product into a zero
  accumulator is the plain sum, so that function is the reference's layer (Proof/RefLayers reads the reference's
  stages at an entry; Proof/SageSpec states the layer).  (3) Between the layers both programs gather, add up and count
  with the same closed functions of the edge list (Proof/HostTerms, Proof/RefHost); the kernel's side multiplies the
  neighbour sum by `1 / max (deg r) 1` where the reference divides by `max (deg r) 1`, and `x · (1 / y) = x / y` on the
  extended reals whenever `y ≠ 0`, which `max d 1 ≥ 1` always is: no finiteness of any input is used.  (4) The
  kernel's final memory is a fold through its six segments (Proof/KernelRun); Proof/Entry0–2 read what each region is
  entered with off that fold, and Proof/Layer0–2 carry the equality with the reference's stages from one layer to the
  next.  The idealization changed nothing in the kernel (its ledger is empty), so the fourth conjunct is trivial.
-/
import proofs.«161210_j10050223473232_1_alg».proof.Defs
import proofs.«161210_j10050223473232_1_alg».proof.Proof.Gen.Kernel
import proofs.«161210_j10050223473232_1_alg».proof.Proof.Gen.Kernel.Skeleton
import proofs.«161210_j10050223473232_1_alg».proof.Proof.Gen.Kernel.Launch
import proofs.«161210_j10050223473232_1_alg».proof.Proof.Gen.Kernel.Points
import proofs.«161210_j10050223473232_1_alg».proof.Proof.Gen.Kernel.Frame
import proofs.«161210_j10050223473232_1_alg».proof.Proof.Gen.KernelIdeal
import proofs.«161210_j10050223473232_1_alg».proof.Proof.Gen.KernelIdeal.Skeleton
import proofs.«161210_j10050223473232_1_alg».proof.Proof.Gen.KernelIdeal.Launch
import proofs.«161210_j10050223473232_1_alg».proof.Proof.Gen.KernelIdeal.Points
import proofs.«161210_j10050223473232_1_alg».proof.Proof.Gen.KernelIdeal.Frame
import proofs.«161210_j10050223473232_1_alg».proof.Proof.Gen.ReferenceIdeal
import proofs.«161210_j10050223473232_1_alg».proof.Proof.Gen.Pre_finite_inputs
import proofs.«161210_j10050223473232_1_alg».proof.Proof.Gen.ReferenceIdeal.Run
import proofs.«161210_j10050223473232_1_alg».proof.Proof.Gen.ReferenceIdeal.Read
import proofs.«161210_j10050223473232_1_alg».proof.Proof.KernelRun
import proofs.«161210_j10050223473232_1_alg».proof.Proof.Layer2
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as launched. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the reference's result stage of the kernel's launch arguments. -/
theorem algebraic : Cert.algebraic_KernelIdeal_ReferenceIdeal := by
  intro m ρ m' ρ' _ hagree
  refine ⟨fun c => Cert.ReferenceIdeal.Read.val_main_v112 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono (fun r h c => ⟨(h c).1.trans (Cert.Sage.layer2_eq m ρ c), (h c).2⟩)
      (Cert.KernelIdeal.RunValue.run (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9, e10, e11, e12, e13, e14, e15, e16, e17, e18⟩ := hagree c
    rw [(h c).1, Cert.ReferenceIdeal.Read.val_main_v112_eq, e0, e1, e2, e3, e4, e5, e6, e7, e8, e9, e10, e11, e12, e13, e14, e15, e16, e17, e18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
